-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256 : Shape := ⟨3, ![16, 256, 256]⟩
abbrev S512x128 : Shape := ⟨2, ![512, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S16x256x256 : S_.BroadcastsInDim S16x256x256 (![] : Fin 0 → Fin S16x256x256.rank)
  reducesTo_S16x256x256_S_d0_1_2 : S16x256x256.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x256 .f32) (main_arg1 : FVec F S512x128 .f32) (main_arg2 : FVec F S128 .f32) (main_arg3 : FVec F S128x256 .f32) (main_arg4 : FVec F S256 .f32) : IVec S_ 1 :=
  let main_v0 : FVec F S16x256x256 .f32 := Host.absf main_arg0
  let main_cst : FVec F S_ .f32 := constant S_ .f32 0x7F800000#32
  let main_v1 : FVec F S16x256x256 .f32 := broadcastInDim S16x256x256 ![] bcast_S_S16x256x256 main_cst
  let main_v2 : IVec S16x256x256 1 := cmpf .olt main_v0 main_v1
  let main_c : IVec S_ 1 := constantI S_ 1 1#1
  let main_v3 : IVec S_ 1 := (fun x v => Host.reduce IntOp.andi x v reducesTo_S16x256x256_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S16x256x256 : Shape := ⟨3, ![16, 256, 256]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x128 : Shape := ⟨2, ![1, 128]⟩
abbrev S1x256 : Shape := ⟨2, ![1, 256]⟩
abbrev S1x128x256 : Shape := ⟨3, ![1, 128, 256]⟩
abbrev S1x256x256 : Shape := ⟨3, ![1, 256, 256]⟩
abbrev S128x128 : Shape := ⟨2, ![128, 128]⟩
abbrev S256x256 : Shape := ⟨2, ![256, 256]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 10
  | .vmem => 11
  | .smem => 0
  | _ => 0

abbrev bufTy : (tb : Table) → Fin (tcTables nBuf tb) → BufTy
  | .hbm, ⟨0, _⟩ => ⟨S16x256x256, .f32⟩
  | .hbm, ⟨1, _⟩ => ⟨S512x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S1x128, .f32⟩
  | .hbm, ⟨8, _⟩ => ⟨S1x256, .f32⟩
  | .hbm, ⟨9, _⟩ => ⟨S16x256x256, .f32⟩
  | .local _ .vmem, ⟨0, _⟩ => ⟨S1x128x256, .f32⟩
  | .local _ .vmem, ⟨1, _⟩ => ⟨S1x128x256, .f32⟩
  | .local _ .vmem, ⟨2, _⟩ => ⟨S1x256x256, .f32⟩
  | .local _ .vmem, ⟨3, _⟩ => ⟨S1x256x256, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S128x256, .f32⟩
  | .local _ .vmem, ⟨8, _⟩ => ⟨S1x256, .f32⟩
  | .local _ .vmem, ⟨9, _⟩ => ⟨S1x128x256, .f32⟩
  | .local _ .vmem, ⟨10, _⟩ => ⟨S1x128x256, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S512x128_S256x128_0_0 : S512x128.Slices ![0, 0] S256x128
  slices_S512x128_S256x128_256_0 : S512x128.Slices ![256, 0] S256x128
  shapeCasts_S128_S1x128 : S128.ShapeCasts S1x128
  shapeCasts_S256_S1x256 : S256.ShapeCasts S1x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  slices_S256x128_o0_0_S128x128 : S256x128.Slices ![0, 0] S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [1] S128x128
  slices_S256x128_o128_0_S128x128 : S256x128.Slices ![128, 0] S128x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  shapeCasts_S128x256_S1x128x256 : S128x256.ShapeCasts S1x128x256
  dot_S128x256_S256x128_S128x128_1_0_0_1_n_n_wf : DotDims.WF S128x256 S256x128 S128x128 [1] [0] [0] [1] [] []
  dot_S256x256_S256x128_S256x128_1_0_0_1_n_n_wf : DotDims.WF S256x256 S256x128 S256x128 [1] [0] [0] [1] [] []
  dot_S128x128_S128x256_S128x256_1_0_0_1_n_n_wf : DotDims.WF S128x128 S128x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S16x256x256.size a
  hwx0_0 : ∀ i : grid0.Coords, EltTy.bits .f32 = 32 ∨ (Rect.block (s := S16x256x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S16x256x256.size a
  hwx0_1 : ∀ i : grid0.Coords, EltTy.bits .f32 = 32 ∨ (Rect.block (s := S16x256x256) S1x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x256.size a ≤ S16x256x256.size a
  hwx0_7 : ∀ i : grid0.Coords, EltTy.bits .f32 = 32 ∨ (Rect.block (s := S16x256x256) S1x128x256.size (cc0_transform_7 i) (hinb0_7 i)).WholeWords (EltTy.packing .f32)

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x256x256 : Shape := ⟨3, ![16, 256, 256]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S16x256x128 : Shape := ⟨3, ![16, 256, 128]⟩
abbrev S16x256x1x128 : Shape := ⟨4, ![16, 256, 1, 128]⟩
abbrev S16x1x256x128 : Shape := ⟨4, ![16, 1, 256, 128]⟩
abbrev S16x256x256x128 : Shape := ⟨4, ![16, 256, 256, 128]⟩
abbrev S1x1x1x128 : Shape := ⟨4, ![1, 1, 1, 128]⟩
abbrev S_ : Shape := ⟨0, ![]⟩
abbrev S1x1x256 : Shape := ⟨3, ![1, 1, 256]⟩

abbrev nBuf : Space → Nat
  | .hbm => 30
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S512x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S16x256x128, .f32⟩
  | .hbm, ⟨8, _⟩ => ⟨S16x256x128, .f32⟩
  | .hbm, ⟨9, _⟩ => ⟨S16x256x1x128, .f32⟩
  | .hbm, ⟨10, _⟩ => ⟨S16x1x256x128, .f32⟩
  | .hbm, ⟨11, _⟩ => ⟨S16x256x256x128, .f32⟩
  | .hbm, ⟨12, _⟩ => ⟨S16x256x256x128, .f32⟩
  | .hbm, ⟨13, _⟩ => ⟨S16x256x256x128, .f32⟩
  | .hbm, ⟨14, _⟩ => ⟨S1x1x1x128, .f32⟩
  | .hbm, ⟨15, _⟩ => ⟨S16x256x256x128, .f32⟩
  | .hbm, ⟨16, _⟩ => ⟨S16x256x256x128, .f32⟩
  | .hbm, ⟨17, _⟩ => ⟨S_, .f32⟩
  | .hbm, ⟨18, _⟩ => ⟨S16x256x256x128, .f32⟩
  | .hbm, ⟨19, _⟩ => ⟨S16x256x256x128, .f32⟩
  | .hbm, ⟨20, _⟩ => ⟨S_, .f32⟩
  | .hbm, ⟨21, _⟩ => ⟨S16x256x128, .f32⟩
  | .hbm, ⟨22, _⟩ => ⟨S_, .f32⟩
  | .hbm, ⟨23, _⟩ => ⟨S16x256x128, .f32⟩
  | .hbm, ⟨24, _⟩ => ⟨S16x256x128, .f32⟩
  | .hbm, ⟨25, _⟩ => ⟨S16x256x256, .f32⟩
  | .hbm, ⟨26, _⟩ => ⟨S1x1x256, .f32⟩
  | .hbm, ⟨27, _⟩ => ⟨S16x256x256, .f32⟩
  | .hbm, ⟨28, _⟩ => ⟨S16x256x256, .f32⟩
  | .hbm, ⟨29, _⟩ => ⟨S16x256x256, .f32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  slices_S512x128_S256x128_0_0 : S512x128.Slices ![0, 0] S256x128
  slices_S512x128_S256x128_256_0 : S512x128.Slices ![256, 0] S256x128
  bcast_S16x256x128_S16x256x1x128_0_1_3 : S16x256x128.BroadcastsInDim S16x256x1x128 (![0, 1, 3] : Fin 3 → Fin S16x256x1x128.rank)
  bcast_S16x256x128_S16x1x256x128_0_2_3 : S16x256x128.BroadcastsInDim S16x1x256x128 (![0, 2, 3] : Fin 3 → Fin S16x1x256x128.rank)
  bcast_S16x256x1x128_S16x256x256x128_0_1_2_3 : S16x256x1x128.BroadcastsInDim S16x256x256x128 (![0, 1, 2, 3] : Fin 4 → Fin S16x256x256x128.rank)
  bcast_S16x1x256x128_S16x256x256x128_0_1_2_3 : S16x1x256x128.BroadcastsInDim S16x256x256x128 (![0, 1, 2, 3] : Fin 4 → Fin S16x256x256x128.rank)
  bcast_S128_S1x1x1x128_3 : S128.BroadcastsInDim S1x1x1x128 (![3] : Fin 1 → Fin S1x1x1x128.rank)
  bcast_S1x1x1x128_S16x256x256x128_0_1_2_3 : S1x1x1x128.BroadcastsInDim S16x256x256x128 (![0, 1, 2, 3] : Fin 4 → Fin S16x256x256x128.rank)
  bcast_S_S16x256x256x128 : S_.BroadcastsInDim S16x256x256x128 (![] : Fin 0 → Fin S16x256x256x128.rank)
  reducesTo_S16x256x256x128_S16x256x128_d2 : S16x256x256x128.ReducesTo [2] S16x256x128
  h_S_ : 0 < S_.numel
  bcast_S_S16x256x128 : S_.BroadcastsInDim S16x256x128 (![] : Fin 0 → Fin S16x256x128.rank)
  bcast_S256_S1x1x256_2 : S256.BroadcastsInDim S1x1x256 (![2] : Fin 1 → Fin S1x1x256.rank)
  bcast_S1x1x256_S16x256x256_0_1_2 : S1x1x256.BroadcastsInDim S16x256x256 (![0, 1, 2] : Fin 3 → Fin S16x256x256.rank)
  dot_S16x256x256_S256x128_S16x256x128_2_0_01_1_n_n_wf : DotDims.WF S16x256x256 S256x128 S16x256x128 [2] [0] [0, 1] [1] [] []
  dot_S16x256x128_S128x256_S16x256x256_2_0_01_1_n_n_wf : DotDims.WF S16x256x128 S128x256 S16x256x256 [2] [0] [0, 1] [1] [] []

variable [Facts₀]

def dot_S16x256x256_S256x128_S16x256x128_2_0_01_1_n_n : DotDims S16x256x256 S256x128 S16x256x128 where
  lhsContracting := [2]
  rhsContracting := [0]
  lhsNonContracting := [0, 1]
  rhsNonContracting := [1]
  lhsBatch := []
  rhsBatch := []
  wf := dot_S16x256x256_S256x128_S16x256x128_2_0_01_1_n_n_wf
def dot_S16x256x128_S128x256_S16x256x256_2_0_01_1_n_n : DotDims S16x256x128 S128x256 S16x256x256 where
  lhsContracting := [2]
  rhsContracting := [0]
  lhsNonContracting := [0, 1]
  rhsNonContracting := [1]
  lhsBatch := []
  rhsBatch := []
  wf := dot_S16x256x128_S128x256_S16x256x256_2_0_01_1_n_n_wf

class Facts : Prop extends Facts₀ where

variable [Facts]
-- ==== Proof.LibSharedFrame.lean ====
/-
  The frame run of a pipeline kernel whose windows may SHARE an array.

  A kernel handed one array through several input windows (here: the same tensor read once as the block of query
  rows and once as the whole batch of key rows) is outside the launch facts that ask the windows' arrays to be
  pairwise distinct. The run itself needs distinctness only to deal each array's full share to its one window; when
  several INPUT windows read one array, its full share is instead split among them, each window holding a positive
  part, and reading needs no more. This module states the frame run with that dealing left as a hypothesis
  (`hsplit`): from the distinct buffers behind the arrays, each whole at the full share, to the proof data's arrays
  at their shares. Everything else is as for distinct arrays: the body obligation, nothing owed, @main up to the
  region, and the class invariant (the scoped rest and the generator register) at every point. The conclusion is
  the same post: every array at what the proof data compute, every bypassing buffer unchanged.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN for windows that may share arrays: as the frame run for distinct arrays, with the layout facts taken
    one by one (the arrays need not be distinct) and the dealing of the buffers behind the arrays among the windows
    (`hsplit`) supplied by the certificate. -/
theorem θ_run_frame_shared
    (hcell : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = ΦA (cfg).spec c) :
    θ_run 𝔻 (onTc main) (s₀ m g) (FramePost cfgs dats p V) := by
  classical
  have phinj : Function.Injective (cellOf (nD := nD) (τ := τ)
      (pin (fun q => (cfgs q).toPCfg (Val := Val)) fun q => (cfgs q).toPCfg_adm)) := hcell
  exact θ_run_region_pf (fun q => (cfgs q).toPCfg (Val := Val)) (fun q => (cfgs q).toPCfg_adm) dats () phinj p hw
    (OwnSemFacts.none (cfg).spec) (PreFacts.none _) emb₁ defs₀ 𝒱₀ m g main hbody hne harr hstage howed
    (G := fun _ => iprop(emp))
    (u₀ := initOf (cells (pin (fun q => (cfgs q).toPCfg (Val := Val)) fun q => (cfgs q).toPCfg_adm) phinj)
      (launchToks (pin (fun q => (cfgs q).toPCfg (Val := Val)) fun q => (cfgs q).toPCfg_adm) phinj))
    (hu₀ := by
      iintro Hu; imodintro
      isplitl [Hu]
      · iapply (show (ownU _ : sProp 𝕄) ⊢ BI.own (emb₁ (initOf (cells (pin (fun q => (cfgs q).toPCfg (Val := Val)) fun q => (cfgs q).toPCfg_adm) phinj)
          (launchToks (pin (fun q => (cfgs q).toPCfg (Val := Val)) fun q => (cfgs q).toPCfg_adm) phinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) (Cfg.toPCfg (Val := Val) (cfg)).pre (cfg).spec c (V c))
    (hX := fun c => by
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (QY := fun c s => ∀ b ∈ restRefsP sig (Cfg.toPCfg (Val := Val) (cfg)).pre (cfg).spec, s.mem ((c.tc : Thread nD τ).loc b) = V c b)
    (hY := fun c s' => by
      iintro ⟨-, HU, HSI⟩
      unfold unscopedRestP
      imodintro
      iapply (pointsTo_read_all (restRefsP sig (Cfg.toPCfg (Val := Val) (cfg)).pre (cfg).spec) (fun b => (c.tc : Thread nD τ).loc b) (V c) s')
      isplitl [HU] <;> iassumption)
    (hQ := fun s h c => ⟨(h c).1, rest_of_restP (Cfg.toPCfg (Val := Val) (cfg)).pre (cfg).spec ((cfg).toPCfg_adm).1 c (V c) s (fun k => k.elim0) (h c).2.1 (h c).2.2⟩)

end SharedFrame

end Pipeline

end Idealize.ShloMosaic

end
-- ==== Proof.FrameKernel.lean ====
/-
  The frame of the program: every weakly fair execution of @main terminates without a fault and leaves the five
  argument arrays as launched.

  @main is four host operations (the two halves of the first weight matrix sliced out, the two biases reshaped to
  rows), then one pipelined region over the grid of 16 batches × 2 tiles of 128 query rows. The region has eight
  windows; windows 0 and 1 both read the tensor `x` (the tile of query rows, and the whole batch of key rows), so
  the full share of `x`'s buffer is split between them, a half each; every other array has one window and is held
  whole. The body loads its seven input blocks whole, computes, and stores the output block whole: what each point
  writes back is one function (`out0_7`) of the seven input blocks at that point. At every point each input's
  staging buffer holds that window's block of its array, fetched there or carried over from the last fetch.
-/
import proofs.«153566_j28819230556872_2_alg».proof.Proof.Gen.Kernel.Launch
import proofs.«153566_j28819230556872_2_alg».proof.Proof.Gen.Kernel.Skeleton
import proofs.«153566_j28819230556872_2_alg».proof.Proof.Gen.Kernel.Points
import proofs.«153566_j28819230556872_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the four host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: not fetched
    means the block index has not moved since the last fetch, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the two argument arrays the region stages (arguments 0 and 3) are inputs, never
    written; the three it does not stage bypass the region; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats 0 c).arrAt_in 5 rfl _).trans ((hA c 5).trans (V_main_arg3 m c))),
      ((h c).2 main_arg4 (Pipeline.mem_restRefs_of main_arg4 (by decide) (by decide))).trans (V_main_arg4 m c)⟩) h

/-! ## The body's accesses: every load and the store take the whole block -/

abbrev r0_0 : Rect S1x128x256 := Rect.unit (s := S1x128x256) ![0, 0, 0] S1x128x256.size inb_S1x128x256_S1x128x256_0_0_0
abbrev r0_1 : Rect S1x256x256 := Rect.unit (s := S1x256x256) ![0, 0, 0] S1x256x256.size inb_S1x256x256_S1x256x256_0_0_0
abbrev r0_2 : Rect S256x128 := Rect.unit (s := S256x128) ![0, 0] S256x128.size inb_S256x128_S256x128_0_0
abbrev r0_4 : Rect S1x128 := Rect.unit (s := S1x128) ![0, 0] S1x128.size inb_S1x128_S1x128_0_0
abbrev r0_5 : Rect S128x256 := Rect.unit (s := S128x256) ![0, 0] S128x256.size inb_S128x256_S128x256_0_0
abbrev r0_6 : Rect S1x256 := Rect.unit (s := S1x256) ![0, 0] S1x256.size inb_S1x256_S1x256_0_0

/-! ## What the body leaves in the output window's buffer -/

/-- The output buffer after the body, from the seven input blocks: its one store, of the payload over the loads. -/
def out0_7 (x0 : Vec F S1x128x256 .f32) (x1 : Vec F S1x256x256 .f32) (x2 : Vec F S256x128 .f32) (x3 : Vec F S256x128 .f32) (x4 : Vec F S1x128 .f32) (x5 : Vec F S128x256 .f32) (x6 : Vec F S1x256 .f32) : Vec F S1x128x256 .f32 :=
  View.canon [⟨r0_0, k0_pay1 (k0_pay2 (View.ld x0 r0_0)) (k0_pay5 (View.ld x0 r0_0) (View.ld x2 r0_2) (View.ld x4 r0_4) (View.ld x1 r0_1) (View.ld x3 r0_2))
    (k0_pay6 (View.ld x0 r0_0) (View.ld x2 r0_2) (View.ld x4 r0_4) (View.ld x1 r0_1) (View.ld x3 r0_2)) (View.ld x5 r0_5) (View.ld x6 r0_6)⟩]

/-- The one store covers the buffer. -/
theorem cover0_7 (p0 : Vec F S1x128x256 .f32) (y : S1x128x256.Idx) :
    ∃ pc ∈ ([⟨r0_0, p0⟩] : List (View.Piece (Elt F) S1x128x256 .f32)), y ∈ pc.1.set :=
  View.cover_of_tiled [⟨r0_0, p0⟩] S1x128x256.size (by rfl) y

/-! ## The body's triple -/

set_option maxHeartbeats 2000000 in
/-- The body on whole staging memrefs, the inputs' at contents `xW` and the output's at anything, runs to the
    continuation holding the inputs' as they were and the output's at `out0_7` of them. -/
theorem sound_kernel (c : Dev nD) (E : Set ℕ) (i : grid0.Coords) (arg2 : Memref sig .tc .vmem S1x128x256 .f32) (harg2 : arg2.IsWhole) (arg3 : Memref sig .tc .vmem S1x256x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x128x256 .f32) (harg9 : arg9.IsWhole)
    (x0 : Vec F S1x128x256 .f32) (x1 : Vec F S1x256x256 .f32) (x2 : Vec F S256x128 .f32) (x3 : Vec F S256x128 .f32) (x4 : Vec F S1x128 .f32) (x5 : Vec F S128x256 .f32) (x6 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the pipeline on core `c`: the arrays as the region finds them; after the body at point `t`
    each input's buffer at its block and the output's at `out0_7` of the input blocks; the invariant the scoped rest
    and the generator register, untouched; nothing owed; of the shared tensor's buffer a half to each of its two
    windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The buffers behind the arrays, dealt among the windows -/

/-- The distinct buffers behind the eight windows' arrays. -/
theorem arrRefs_eq : Finset.univ.image (Pipeline.arrRef spec0) = [main_arg0, main_v0, main_v1, main_v2, main_arg3, main_v3, main_v4].toFinset := by
  decide

/-- A conjunction over those buffers, one by one. -/
theorem bigSep_arrRefs {M : Type} [URA M] (Φ : Ref sig .tc → sProp M) :
    bigSep (Finset.univ.image (Pipeline.arrRef spec0)) Φ
      = iprop(Φ main_arg0 ∗ Φ main_v0 ∗ Φ main_v1 ∗ Φ main_v2 ∗ Φ main_arg3 ∗ Φ main_v3 ∗ Φ main_v4) :=
  bigSep_eq_bigSepL_of_eq [main_arg0, main_v0, main_v1, main_v2, main_arg3, main_v3, main_v4] arrRefs_eq (by decide) Φ

/-! Each window's array, whole, at the window's share and the region-entry contents: the two windows on the shared
    tensor hold a half each, the others the whole. -/
theorem arr_pt_0 (c : Dev nD) :
    ((cfg0.win 0).arr.view.loc (c.tc : Thread nD τ) ↦[(cfg0.win 0).arr.view.set]{(dats m 0 c).share 0} (dats m 0 c).arrAt 0 0 : sProp 𝕄)
      = ((c.tc : Thread nD τ).loc main_arg0 ↦{fullShare.left} V m c main_arg0) := by
  rw [(arr_whole0 0).set_eq_univ]; rfl
theorem arr_pt_1 (c : Dev nD) :
    ((cfg0.win 1).arr.view.loc (c.tc : Thread nD τ) ↦[(cfg0.win 1).arr.view.set]{(dats m 0 c).share 1} (dats m 0 c).arrAt 1 0 : sProp 𝕄)
      = ((c.tc : Thread nD τ).loc main_arg0 ↦{fullShare.right} V m c main_arg0) := by
  rw [(arr_whole0 1).set_eq_univ]; rfl
theorem arr_pt_2 (c : Dev nD) :
    ((cfg0.win 2).arr.view.loc (c.tc : Thread nD τ) ↦[(cfg0.win 2).arr.view.set]{(dats m 0 c).share 2} (dats m 0 c).arrAt 2 0 : sProp 𝕄)
      = ((c.tc : Thread nD τ).loc main_v0 ↦{fullShare} V m c main_v0) := by
  rw [(arr_whole0 2).set_eq_univ]; rfl
theorem arr_pt_3 (c : Dev nD) :
    ((cfg0.win 3).arr.view.loc (c.tc : Thread nD τ) ↦[(cfg0.win 3).arr.view.set]{(dats m 0 c).share 3} (dats m 0 c).arrAt 3 0 : sProp 𝕄)
      = ((c.tc : Thread nD τ).loc main_v1 ↦{fullShare} V m c main_v1) := by
  rw [(arr_whole0 3).set_eq_univ]; rfl
theorem arr_pt_4 (c : Dev nD) :
    ((cfg0.win 4).arr.view.loc (c.tc : Thread nD τ) ↦[(cfg0.win 4).arr.view.set]{(dats m 0 c).share 4} (dats m 0 c).arrAt 4 0 : sProp 𝕄)
      = ((c.tc : Thread nD τ).loc main_v2 ↦{fullShare} V m c main_v2) := by
  rw [(arr_whole0 4).set_eq_univ]; rfl
theorem arr_pt_5 (c : Dev nD) :
    ((cfg0.win 5).arr.view.loc (c.tc : Thread nD τ) ↦[(cfg0.win 5).arr.view.set]{(dats m 0 c).share 5} (dats m 0 c).arrAt 5 0 : sProp 𝕄)
      = ((c.tc : Thread nD τ).loc main_arg3 ↦{fullShare} V m c main_arg3) := by
  rw [(arr_whole0 5).set_eq_univ]; rfl
theorem arr_pt_6 (c : Dev nD) :
    ((cfg0.win 6).arr.view.loc (c.tc : Thread nD τ) ↦[(cfg0.win 6).arr.view.set]{(dats m 0 c).share 6} (dats m 0 c).arrAt 6 0 : sProp 𝕄)
      = ((c.tc : Thread nD τ).loc main_v3 ↦{fullShare} V m c main_v3) := by
  rw [(arr_whole0 6).set_eq_univ]; rfl
theorem arr_pt_7 (c : Dev nD) :
    ((cfg0.win 7).arr.view.loc (c.tc : Thread nD τ) ↦[(cfg0.win 7).arr.view.set]{(dats m 0 c).share 7} (dats m 0 c).arrAt 7 0 : sProp 𝕄)
      = ((c.tc : Thread nD τ).loc main_v4 ↦{fullShare} V m c main_v4) := by
  rw [(arr_whole0 7).set_eq_univ]; rfl

/-- The seven buffers, each whole at the full share, make the eight windows' arrays at their shares: the shared
    tensor's full share is its two halves. -/
theorem hsplit (c : Dev nD) :
    (Pipeline.arrBufs spec0 c (V m c) : sProp 𝕄) ⊢ (dats m 0 c).arrays ((dats m 0 c).arrAt · 0) := by
  unfold Pipeline.arrBufs Pipeline.Dat.arrays
  rw [bigSep_arrRefs, bigSep_W0]
  rw [arr_pt_0, arr_pt_1, arr_pt_2, arr_pt_3, arr_pt_4, arr_pt_5, arr_pt_6, arr_pt_7]
  iintro ⟨Ha0, Hv0, Hv1, Hv2, Ha3, Hv3, Hv4⟩
  ihave Hs := (pointsTo_share (PosShare.mem_left_op_right fullShare)).1 $$ Ha0
  icases Hs with ⟨HaL, HaR⟩
  isplitl [HaL]; · iexact HaL
  isplitl [HaR]; · iexact HaR
  isplitl [Hv0]; · iexact Hv0
  isplitl [Hv1]; · iexact Hv1
  isplitl [Hv2]; · iexact Hv2
  isplitl [Ha3]; · iexact Ha3
  isplitl [Hv3]; · iexact Hv3
  iexact Hv4

/-! ## The run and the frame -/

set_option backward.isDefEq.respectTransparency.types false in
/-- Every weakly fair execution of @main terminates, and every final state has every array of the pipeline at what
    the proof data compute and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hΦ := fun _ _ => rfl)

/-- The frame: @main runs to the end without a fault and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Run

end
-- ==== Proof.FrameKernelIdeal.lean ====
/-
  The frame of the program: every weakly fair execution of @main terminates without a fault and leaves the five
  argument arrays as launched.

  @main is four host operations (the two halves of the first weight matrix sliced out, the two biases reshaped to
  rows), then one pipelined region over the grid of 16 batches × 2 tiles of 128 query rows. The region has eight
  windows; windows 0 and 1 both read the tensor `x` (the tile of query rows, and the whole batch of key rows), so
  the full share of `x`'s buffer is split between them, a half each; every other array has one window and is held
  whole. The body loads its seven input blocks whole, computes, and stores the output block whole: what each point
  writes back is one function (`out0_7`) of the seven input blocks at that point. At every point each input's
  staging buffer holds that window's block of its array, fetched there or carried over from the last fetch.
-/
import proofs.«153566_j28819230556872_2_alg».proof.Proof.Gen.KernelIdeal.Launch
import proofs.«153566_j28819230556872_2_alg».proof.Proof.Gen.KernelIdeal.Skeleton
import proofs.«153566_j28819230556872_2_alg».proof.Proof.Gen.KernelIdeal.Points
import proofs.«153566_j28819230556872_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the four host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: not fetched
    means the block index has not moved since the last fetch, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the two argument arrays the region stages (arguments 0 and 3) are inputs, never
    written; the three it does not stage bypass the region; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats 0 c).arrAt_in 5 rfl _).trans ((hA c 5).trans (V_main_arg3 m c))),
      ((h c).2 main_arg4 (Pipeline.mem_restRefs_of main_arg4 (by decide) (by decide))).trans (V_main_arg4 m c)⟩) h

/-! ## The body's accesses: every load and the store take the whole block -/

abbrev r0_0 : Rect S1x128x256 := Rect.unit (s := S1x128x256) ![0, 0, 0] S1x128x256.size inb_S1x128x256_S1x128x256_0_0_0
abbrev r0_1 : Rect S1x256x256 := Rect.unit (s := S1x256x256) ![0, 0, 0] S1x256x256.size inb_S1x256x256_S1x256x256_0_0_0
abbrev r0_2 : Rect S256x128 := Rect.unit (s := S256x128) ![0, 0] S256x128.size inb_S256x128_S256x128_0_0
abbrev r0_4 : Rect S1x128 := Rect.unit (s := S1x128) ![0, 0] S1x128.size inb_S1x128_S1x128_0_0
abbrev r0_5 : Rect S128x256 := Rect.unit (s := S128x256) ![0, 0] S128x256.size inb_S128x256_S128x256_0_0
abbrev r0_6 : Rect S1x256 := Rect.unit (s := S1x256) ![0, 0] S1x256.size inb_S1x256_S1x256_0_0

/-! ## What the body leaves in the output window's buffer -/

/-- The output buffer after the body, from the seven input blocks: its one store, of the payload over the loads. -/
def out0_7 (x0 : Vec F S1x128x256 .f32) (x1 : Vec F S1x256x256 .f32) (x2 : Vec F S256x128 .f32) (x3 : Vec F S256x128 .f32) (x4 : Vec F S1x128 .f32) (x5 : Vec F S128x256 .f32) (x6 : Vec F S1x256 .f32) : Vec F S1x128x256 .f32 :=
  View.canon [⟨r0_0, k0_pay1 (k0_pay2 (View.ld x0 r0_0)) (k0_pay5 (View.ld x0 r0_0) (View.ld x2 r0_2) (View.ld x4 r0_4) (View.ld x1 r0_1) (View.ld x3 r0_2))
    (k0_pay6 (View.ld x0 r0_0) (View.ld x2 r0_2) (View.ld x4 r0_4) (View.ld x1 r0_1) (View.ld x3 r0_2)) (View.ld x5 r0_5) (View.ld x6 r0_6)⟩]

/-- The one store covers the buffer. -/
theorem cover0_7 (p0 : Vec F S1x128x256 .f32) (y : S1x128x256.Idx) :
    ∃ pc ∈ ([⟨r0_0, p0⟩] : List (View.Piece (Elt F) S1x128x256 .f32)), y ∈ pc.1.set :=
  View.cover_of_tiled [⟨r0_0, p0⟩] S1x128x256.size (by rfl) y

/-! ## The body's triple -/

set_option maxHeartbeats 2000000 in
/-- The body on whole staging memrefs, the inputs' at contents `xW` and the output's at anything, runs to the
    continuation holding the inputs' as they were and the output's at `out0_7` of them. -/
theorem sound_kernel (c : Dev nD) (E : Set ℕ) (i : grid0.Coords) (arg2 : Memref sig .tc .vmem S1x128x256 .f32) (harg2 : arg2.IsWhole) (arg3 : Memref sig .tc .vmem S1x256x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x128x256 .f32) (harg9 : arg9.IsWhole)
    (x0 : Vec F S1x128x256 .f32) (x1 : Vec F S1x256x256 .f32) (x2 : Vec F S256x128 .f32) (x3 : Vec F S256x128 .f32) (x4 : Vec F S1x128 .f32) (x5 : Vec F S128x256 .f32) (x6 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the pipeline on core `c`: the arrays as the region finds them; after the body at point `t`
    each input's buffer at its block and the output's at `out0_7` of the input blocks; the invariant the scoped rest
    and the generator register, untouched; nothing owed; of the shared tensor's buffer a half to each of its two
    windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The buffers behind the arrays, dealt among the windows -/

/-- The distinct buffers behind the eight windows' arrays. -/
theorem arrRefs_eq : Finset.univ.image (Pipeline.arrRef spec0) = [main_arg0, main_v0, main_v1, main_v2, main_arg3, main_v3, main_v4].toFinset := by
  decide

/-- A conjunction over those buffers, one by one. -/
theorem bigSep_arrRefs {M : Type} [URA M] (Φ : Ref sig .tc → sProp M) :
    bigSep (Finset.univ.image (Pipeline.arrRef spec0)) Φ
      = iprop(Φ main_arg0 ∗ Φ main_v0 ∗ Φ main_v1 ∗ Φ main_v2 ∗ Φ main_arg3 ∗ Φ main_v3 ∗ Φ main_v4) :=
  bigSep_eq_bigSepL_of_eq [main_arg0, main_v0, main_v1, main_v2, main_arg3, main_v3, main_v4] arrRefs_eq (by decide) Φ

/-! Each window's array, whole, at the window's share and the region-entry contents: the two windows on the shared
    tensor hold a half each, the others the whole. -/
theorem arr_pt_0 (c : Dev nD) :
    ((cfg0.win 0).arr.view.loc (c.tc : Thread nD τ) ↦[(cfg0.win 0).arr.view.set]{(dats m 0 c).share 0} (dats m 0 c).arrAt 0 0 : sProp 𝕄)
      = ((c.tc : Thread nD τ).loc main_arg0 ↦{fullShare.left} V m c main_arg0) := by
  rw [(arr_whole0 0).set_eq_univ]; rfl
theorem arr_pt_1 (c : Dev nD) :
    ((cfg0.win 1).arr.view.loc (c.tc : Thread nD τ) ↦[(cfg0.win 1).arr.view.set]{(dats m 0 c).share 1} (dats m 0 c).arrAt 1 0 : sProp 𝕄)
      = ((c.tc : Thread nD τ).loc main_arg0 ↦{fullShare.right} V m c main_arg0) := by
  rw [(arr_whole0 1).set_eq_univ]; rfl
theorem arr_pt_2 (c : Dev nD) :
    ((cfg0.win 2).arr.view.loc (c.tc : Thread nD τ) ↦[(cfg0.win 2).arr.view.set]{(dats m 0 c).share 2} (dats m 0 c).arrAt 2 0 : sProp 𝕄)
      = ((c.tc : Thread nD τ).loc main_v0 ↦{fullShare} V m c main_v0) := by
  rw [(arr_whole0 2).set_eq_univ]; rfl
theorem arr_pt_3 (c : Dev nD) :
    ((cfg0.win 3).arr.view.loc (c.tc : Thread nD τ) ↦[(cfg0.win 3).arr.view.set]{(dats m 0 c).share 3} (dats m 0 c).arrAt 3 0 : sProp 𝕄)
      = ((c.tc : Thread nD τ).loc main_v1 ↦{fullShare} V m c main_v1) := by
  rw [(arr_whole0 3).set_eq_univ]; rfl
theorem arr_pt_4 (c : Dev nD) :
    ((cfg0.win 4).arr.view.loc (c.tc : Thread nD τ) ↦[(cfg0.win 4).arr.view.set]{(dats m 0 c).share 4} (dats m 0 c).arrAt 4 0 : sProp 𝕄)
      = ((c.tc : Thread nD τ).loc main_v2 ↦{fullShare} V m c main_v2) := by
  rw [(arr_whole0 4).set_eq_univ]; rfl
theorem arr_pt_5 (c : Dev nD) :
    ((cfg0.win 5).arr.view.loc (c.tc : Thread nD τ) ↦[(cfg0.win 5).arr.view.set]{(dats m 0 c).share 5} (dats m 0 c).arrAt 5 0 : sProp 𝕄)
      = ((c.tc : Thread nD τ).loc main_arg3 ↦{fullShare} V m c main_arg3) := by
  rw [(arr_whole0 5).set_eq_univ]; rfl
theorem arr_pt_6 (c : Dev nD) :
    ((cfg0.win 6).arr.view.loc (c.tc : Thread nD τ) ↦[(cfg0.win 6).arr.view.set]{(dats m 0 c).share 6} (dats m 0 c).arrAt 6 0 : sProp 𝕄)
      = ((c.tc : Thread nD τ).loc main_v3 ↦{fullShare} V m c main_v3) := by
  rw [(arr_whole0 6).set_eq_univ]; rfl
theorem arr_pt_7 (c : Dev nD) :
    ((cfg0.win 7).arr.view.loc (c.tc : Thread nD τ) ↦[(cfg0.win 7).arr.view.set]{(dats m 0 c).share 7} (dats m 0 c).arrAt 7 0 : sProp 𝕄)
      = ((c.tc : Thread nD τ).loc main_v4 ↦{fullShare} V m c main_v4) := by
  rw [(arr_whole0 7).set_eq_univ]; rfl

/-- The seven buffers, each whole at the full share, make the eight windows' arrays at their shares: the shared
    tensor's full share is its two halves. -/
theorem hsplit (c : Dev nD) :
    (Pipeline.arrBufs spec0 c (V m c) : sProp 𝕄) ⊢ (dats m 0 c).arrays ((dats m 0 c).arrAt · 0) := by
  unfold Pipeline.arrBufs Pipeline.Dat.arrays
  rw [bigSep_arrRefs, bigSep_W0]
  rw [arr_pt_0, arr_pt_1, arr_pt_2, arr_pt_3, arr_pt_4, arr_pt_5, arr_pt_6, arr_pt_7]
  iintro ⟨Ha0, Hv0, Hv1, Hv2, Ha3, Hv3, Hv4⟩
  ihave Hs := (pointsTo_share (PosShare.mem_left_op_right fullShare)).1 $$ Ha0
  icases Hs with ⟨HaL, HaR⟩
  isplitl [HaL]; · iexact HaL
  isplitl [HaR]; · iexact HaR
  isplitl [Hv0]; · iexact Hv0
  isplitl [Hv1]; · iexact Hv1
  isplitl [Hv2]; · iexact Hv2
  isplitl [Ha3]; · iexact Ha3
  isplitl [Hv3]; · iexact Hv3
  iexact Hv4

/-! ## The run and the frame -/

set_option backward.isDefEq.respectTransparency.types false in
/-- Every weakly fair execution of @main terminates, and every final state has every array of the pipeline at what
    the proof data compute and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hΦ := fun _ _ => rfl)

/-- The frame: @main runs to the end without a fault and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Run

end
-- ==== Proof.Spec.lean ====
/-
  The mathematics both programs compute, written once over plain accessor functions.

  For a query row `xq` (one row of one batch of `x`), the key rows `xk j` of the same batch, the two halves
  `wa`, `wb` of the first weight matrix, the biases and the second weight matrix:

    a h      = ∑ d, xq d · wa[d,h]                      (query-side projection)
    b j h    = ∑ d, xk j d · wb[d,h]                    (key-side projection)
    mean h   = (1/256) · ∑ j, max (a h + b j h + b1 h) 0
    out d    = (∑ h, mean h · w2[h,d]) + b2 d + xq d

  The kernel adds the bias to the query side before pairing, sums the keys in two halves of 128 and multiplies by the
  literal 2⁻⁸ (`meanK`); the reference pairs first, adds the bias, sums all 256 keys and divides by 256 (`meanR`).
  On the extended reals addition is commutative and associative and division by the real 256 IS multiplication by
  1/256, so the two means are one function (`meanK_eq_meanR`); no finiteness is needed.
-/
import Idealize.ShloMosaic.PureOps.Ideal
import Idealize.ShloMosaic.Lib.ValueIdx

noncomputable section

namespace Cert.Spec

open Idealize.ShloMosaic Idealize.ShloMosaic.ValueIdx

/-- The shape of either half of the first weight matrix. -/
abbrev Sw1 : Shape := ⟨2, ![256, 128]⟩
/-- The shape of the second weight matrix. -/
abbrev Sw2 : Shape := ⟨2, ![128, 256]⟩

/-- Key `j` of the first half of the key axis. -/
abbrev lo (j : Fin 128) : Fin 256 := ⟨j.val, by omega⟩
/-- Key `j` of the second half of the key axis. -/
abbrev hi (j : Fin 128) : Fin 256 := ⟨128 + j.val, by omega⟩

/-- One row times one column block of a weight half: `∑ d, u d · w[d,h]`. -/
def dotRow (u : Fin 256 → EReal) (w : Sw1.Idx → EReal) (h : Fin 128) : EReal :=
  ∑ d : Fin 256, u d * w (ix2 d h)

/-- The kernel's mean over keys: bias joined to the query side, two half sums, the product with 1/256. -/
def meanK (a b1 : EReal) (B : Fin 256 → EReal) : EReal :=
  ((∑ j : Fin 128, max (a + b1 + B (lo j)) 0) + ∑ j : Fin 128, max (a + b1 + B (hi j)) 0) * ((1 / 256 : ℝ) : EReal)

/-- The reference's mean over keys: pair, add the bias, one sum over all keys, the quotient by 256. -/
def meanR (a b1 : EReal) (B : Fin 256 → EReal) : EReal :=
  Ideal.div (∑ j : Fin 256, max (a + B j + b1) 0) ((256 : ℝ) : EReal)

/-- A sum over the 256 keys is the sum over the first 128 plus the sum over the last 128. -/
theorem sum_halves (g : Fin 256 → EReal) : ∑ j : Fin 256, g j = (∑ j : Fin 128, g (lo j)) + ∑ j : Fin 128, g (hi j) := by
  have h := Fin.sum_univ_add (M := EReal) (a := 128) (b := 128) g
  rw [h]
  congr 1

/-- The two means are one function on the extended reals. -/
theorem meanK_eq_meanR (a b1 : EReal) (B : Fin 256 → EReal) : meanK a b1 B = meanR a b1 B := by
  unfold meanK meanR
  rw [Ideal.div_coe (by norm_num : (256 : ℝ) ≠ 0), sum_halves]
  simp only [add_right_comm a b1]

/-- The kernel's output element at column `d` of a query row. -/
def outK (xq : Fin 256 → EReal) (xk : Fin 256 → Fin 256 → EReal) (wa wb : Sw1.Idx → EReal) (b1 : Fin 128 → EReal)
    (w2 : Sw2.Idx → EReal) (b2d : EReal) (d : Fin 256) : EReal :=
  (∑ h : Fin 128, meanK (dotRow xq wa h) (b1 h) (fun j => dotRow (xk j) wb h) * w2 (ix2 h d)) + b2d + xq d

/-- The reference's output element at column `d` of a query row. -/
def outR (xq : Fin 256 → EReal) (xk : Fin 256 → Fin 256 → EReal) (wa wb : Sw1.Idx → EReal) (b1 : Fin 128 → EReal)
    (w2 : Sw2.Idx → EReal) (b2d : EReal) (d : Fin 256) : EReal :=
  (∑ h : Fin 128, meanR (dotRow xq wa h) (b1 h) (fun j => dotRow (xk j) wb h) * w2 (ix2 h d)) + b2d + xq d

/-- Both programs compute the same element. -/
theorem outK_eq_outR (xq : Fin 256 → EReal) (xk : Fin 256 → Fin 256 → EReal) (wa wb : Sw1.Idx → EReal) (b1 : Fin 128 → EReal)
    (w2 : Sw2.Idx → EReal) (b2d : EReal) (d : Fin 256) : outK xq xk wa wb b1 w2 b2d d = outR xq xk wa wb b1 w2 b2d d := by
  unfold outK outR
  simp only [meanK_eq_meanR]

/-! ## The whole result array -/

/-- The shape of `x` and of the result. -/
abbrev Sx : Shape := ⟨3, ![16, 256, 256]⟩
/-- The shape of the first bias. -/
abbrev Sb1 : Shape := ⟨1, ![128]⟩
/-- The shape of the second bias. -/
abbrev Sb2 : Shape := ⟨1, ![256]⟩

/-- The kernel's result array: element `(b, k, d)` is `outK` of row `k` of batch `b` against all rows of batch `b`. -/
def arrK (x : Sx.Idx → EReal) (wa wb : Sw1.Idx → EReal) (b1 : Sb1.Idx → EReal) (w2 : Sw2.Idx → EReal) (b2 : Sb2.Idx → EReal) :
    Sx.Idx → EReal :=
  fun i => outK (fun d => x (ix3 (i 0) (i 1) d)) (fun j d => x (ix3 (i 0) j d)) wa wb (fun h => b1 (ix1 h)) w2 (b2 (ix1 (i 2))) (i 2)

/-- The reference's result array, likewise over `outR`. -/
def arrR (x : Sx.Idx → EReal) (wa wb : Sw1.Idx → EReal) (b1 : Sb1.Idx → EReal) (w2 : Sw2.Idx → EReal) (b2 : Sb2.Idx → EReal) :
    Sx.Idx → EReal :=
  fun i => outR (fun d => x (ix3 (i 0) (i 1) d)) (fun j d => x (ix3 (i 0) j d)) wa wb (fun h => b1 (ix1 h)) w2 (b2 (ix1 (i 2))) (i 2)

/-- The two result arrays are equal. -/
theorem arrK_eq_arrR (x : Sx.Idx → EReal) (wa wb : Sw1.Idx → EReal) (b1 : Sb1.Idx → EReal) (w2 : Sw2.Idx → EReal) (b2 : Sb2.Idx → EReal) :
    arrK x wa wb b1 w2 b2 = arrR x wa wb b1 w2 b2 :=
  funext fun _ => outK_eq_outR _ _ _ _ _ _ _ _

end Cert.Spec

end
-- ==== Proof.Payload.lean ====
/-
  The kernel body's arithmetic read at one element.

  The body loads a block of 128 query rows `v0`, the 256 key rows `v12` of the same batch, the two halves `v3`, `v15` of the
  first weight matrix, the first bias as a row `v7`, the second weight matrix `v46` and the second bias as a row `v49`.
  Its pure arithmetic, one intermediate value after another, is read here at explicit coordinates:

    pay2 (r, d)    = v0 (0, r, d)                                           (the query block, unit axis dropped)
    pay3 (r, h)    = ∑ d, v0 (0, r, d) · v3 (d, h) + v7 (0, h)               (query projection plus bias)
    pay4 (j, h)    = ∑ d, v12 (0, j, d) · v15 (d, h)                         (key projection)
    pay5 (r, h)    = ∑ j < 128, max (pay3 (r, h) + pay4 (j, h)) 0            (first half of the keys, summed)
    pay6 (r, j, h) = max (pay3 (r, h) + pay4 (128 + j, h)) 0                 (second half of the keys, not yet summed)
    pay1 (0, r, d) = ∑ h, ((pay5 (r, h) + ∑ j, pay6 (r, j, h)) · 1/256) · v46 (h, d) + v49 (0, d) + pay2 (r, d)

  On the extended reals a change of float format is the identity, a product into the zero accumulator is the plain sum of
  products, and a sum over one axis is the sum over that axis's coordinate. Composed, the stored element is `Spec.outK` of the
  query row, the key rows, the weights and the biases (`pay_eq`).
-/
import proofs.«153566_j28819230556872_2_alg».proof.Proof.Gen.KernelIdeal.Skeleton
import proofs.«153566_j28819230556872_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Idealize.SL.Sem
open Cert.KernelIdeal Cert.KernelIdeal.Gen

variable [Cert.KernelIdeal.Facts]

/-! ## The constants -/

/-- The bf16 pattern of `+0.0` denotes `0`. -/
theorem ofBits_zero_bf16 : Ideal.ofBits .bf16 0x0000#16 = 0 := by
  simp [Ideal.ofBits, Ideal.ieee]

/-- The f32 pattern `0x3B800000` (2⁻⁸) denotes the real `1/256`. -/
theorem ofBits_inv256 : Ideal.ofBits .f32 0x3B800000#32 = ((1 / 256 : ℝ) : EReal) := by
  simp [Ideal.ofBits, Ideal.ieee, -EReal.coe_mul]; norm_num

/-! ## Three layout operations read at coordinates -/

/-- An `[a, b]` array cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, k, j)`, the operand at `(i, 0, j)`. -/
theorem broadcastTo_a1b_acb_apply {α : Type} {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, k, j)`, the operand at `(0, k, j)`. -/
theorem broadcastTo_1cb_acb_apply {α : Type} {a b c : ℕ} (v : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

/-! ## The three products, each into the zero accumulator: the sum over the one contracted coordinate -/

theorem mm1_lhs0 (i : S128x128.Idx) (q : dot_S128x256_S256x128_S128x128_1_0_0_1_n_n.contr.Idx) : (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
  rfl
theorem mm1_lhs1 (i : S128x128.Idx) (q : dot_S128x256_S256x128_S128x128_1_0_0_1_n_n.contr.Idx) : (dot_S128x256_S256x128_S128x128_1_0_0_1_n_n.lhsIdx i q 1).val = (q ⟨0, by decide⟩).val :=
  dot_S128x256_S256x128_S128x128_1_0_0_1_n_n.lhsIdx_val_of_single rfl i q
theorem mm1_rhs0 (i : S128x128.Idx) (q : dot_S128x256_S256x128_S128x128_1_0_0_1_n_n.contr.Idx) : (dot_S128x256_S256x128_S128x128_1_0_0_1_n_n.rhsIdx i q 0).val = (q ⟨0, by decide⟩).val :=
  dot_S128x256_S256x128_S128x128_1_0_0_1_n_n.rhsIdx_val_of_single rfl i q
theorem mm1_rhs1 (i : S128x128.Idx) (q : dot_S128x256_S256x128_S128x128_1_0_0_1_n_n.contr.Idx) : (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
  rfl
/-- The query projection's product: a `[128, 256]` block times a `[256, 128]` weight half. -/
theorem mm1_apply (A : FVec Ideal S128x256 .bf16) (B : FVec Ideal S256x128 .bf16) (p : Fin 128) (q : Fin 128) :
    matmul dot_S128x256_S256x128_S128x128_1_0_0_1_n_n none A B (constant (F := Ideal) S128x128 .f32 0x00000000#32) (ix2 p q) = ∑ k : Fin 256, A (ix2 p k) * B (ix2 k q) := by
  simp only [matmul]
  rw [Ideal.matmul_constant_zero_apply, ← Equiv.sum_comp (contrEquiv1 dot_S128x256_S256x128_S128x128_1_0_0_1_n_n 256 rfl rfl).symm]
  refine Finset.sum_congr rfl fun k _ => ?_
  have hk := contrEquiv1_symm_val dot_S128x256_S256x128_S128x128_1_0_0_1_n_n 256 rfl rfl k
  have el : dot_S128x256_S256x128_S128x128_1_0_0_1_n_n.lhsIdx (ix2 p q) ((contrEquiv1 dot_S128x256_S256x128_S128x128_1_0_0_1_n_n 256 rfl rfl).symm k) = ix2 p k := funext fun a => Fin.ext (by
    match a with
    | ⟨0, _⟩ => exact mm1_lhs0 _ _
    | ⟨1, _⟩ => exact (mm1_lhs1 _ _).trans hk)
  have er : dot_S128x256_S256x128_S128x128_1_0_0_1_n_n.rhsIdx (ix2 p q) ((contrEquiv1 dot_S128x256_S256x128_S128x128_1_0_0_1_n_n 256 rfl rfl).symm k) = ix2 k q := funext fun a => Fin.ext (by
    match a with
    | ⟨0, _⟩ => exact (mm1_rhs0 _ _).trans hk
    | ⟨1, _⟩ => exact mm1_rhs1 _ _)
  rw [el, er]

theorem mm2_lhs0 (i : S256x128.Idx) (q : dot_S256x256_S256x128_S256x128_1_0_0_1_n_n.contr.Idx) : (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem mm2_lhs1 (i : S256x128.Idx) (q : dot_S256x256_S256x128_S256x128_1_0_0_1_n_n.contr.Idx) : (dot_S256x256_S256x128_S256x128_1_0_0_1_n_n.lhsIdx i q 1).val = (q ⟨0, by decide⟩).val :=
  dot_S256x256_S256x128_S256x128_1_0_0_1_n_n.lhsIdx_val_of_single rfl i q
theorem mm2_rhs0 (i : S256x128.Idx) (q : dot_S256x256_S256x128_S256x128_1_0_0_1_n_n.contr.Idx) : (dot_S256x256_S256x128_S256x128_1_0_0_1_n_n.rhsIdx i q 0).val = (q ⟨0, by decide⟩).val :=
  dot_S256x256_S256x128_S256x128_1_0_0_1_n_n.rhsIdx_val_of_single rfl i q
theorem mm2_rhs1 (i : S256x128.Idx) (q : dot_S256x256_S256x128_S256x128_1_0_0_1_n_n.contr.Idx) : (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl
/-- The key projection's product: a `[256, 256]` block times a `[256, 128]` weight half. -/
theorem mm2_apply (A : FVec Ideal S256x256 .bf16) (B : FVec Ideal S256x128 .bf16) (p : Fin 256) (q : Fin 128) :
    matmul dot_S256x256_S256x128_S256x128_1_0_0_1_n_n none A B (constant (F := Ideal) S256x128 .f32 0x00000000#32) (ix2 p q) = ∑ k : Fin 256, A (ix2 p k) * B (ix2 k q) := by
  simp only [matmul]
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 p q) ((contrEquiv1 dot_S256x256_S256x128_S256x128_1_0_0_1_n_n 256 rfl rfl).symm k) = ix2 p k := funext fun a => Fin.ext (by
    match a with
    | ⟨0, _⟩ => exact mm2_lhs0 _ _
    | ⟨1, _⟩ => exact (mm2_lhs1 _ _).trans hk)
  have er : dot_S256x256_S256x128_S256x128_1_0_0_1_n_n.rhsIdx (ix2 p q) ((contrEquiv1 dot_S256x256_S256x128_S256x128_1_0_0_1_n_n 256 rfl rfl).symm k) = ix2 k q := funext fun a => Fin.ext (by
    match a with
    | ⟨0, _⟩ => exact (mm2_rhs0 _ _).trans hk
    | ⟨1, _⟩ => exact mm2_rhs1 _ _)
  rw [el, er]

theorem mm3_lhs0 (i : S128x256.Idx) (q : dot_S128x128_S128x256_S128x256_1_0_0_1_n_n.contr.Idx) : (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem mm3_lhs1 (i : S128x256.Idx) (q : dot_S128x128_S128x256_S128x256_1_0_0_1_n_n.contr.Idx) : (dot_S128x128_S128x256_S128x256_1_0_0_1_n_n.lhsIdx i q 1).val = (q ⟨0, by decide⟩).val :=
  dot_S128x128_S128x256_S128x256_1_0_0_1_n_n.lhsIdx_val_of_single rfl i q
theorem mm3_rhs0 (i : S128x256.Idx) (q : dot_S128x128_S128x256_S128x256_1_0_0_1_n_n.contr.Idx) : (dot_S128x128_S128x256_S128x256_1_0_0_1_n_n.rhsIdx i q 0).val = (q ⟨0, by decide⟩).val :=
  dot_S128x128_S128x256_S128x256_1_0_0_1_n_n.rhsIdx_val_of_single rfl i q
theorem mm3_rhs1 (i : S128x256.Idx) (q : dot_S128x128_S128x256_S128x256_1_0_0_1_n_n.contr.Idx) : (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl
/-- The output product: the `[128, 128]` means times the `[128, 256]` second weight matrix. -/
theorem mm3_apply (A : FVec Ideal S128x128 .bf16) (B : FVec Ideal S128x256 .bf16) (p : Fin 128) (q : Fin 256) :
    matmul dot_S128x128_S128x256_S128x256_1_0_0_1_n_n none A B (constant (F := Ideal) S128x256 .f32 0x00000000#32) (ix2 p q) = ∑ k : Fin 128, A (ix2 p k) * B (ix2 k q) := by
  simp only [matmul]
  rw [Ideal.matmul_constant_zero_apply, ← Equiv.sum_comp (contrEquiv1 dot_S128x128_S128x256_S128x256_1_0_0_1_n_n 128 rfl rfl).symm]
  refine Finset.sum_congr rfl fun k _ => ?_
  have hk := contrEquiv1_symm_val dot_S128x128_S128x256_S128x256_1_0_0_1_n_n 128 rfl rfl k
  have el : dot_S128x128_S128x256_S128x256_1_0_0_1_n_n.lhsIdx (ix2 p q) ((contrEquiv1 dot_S128x128_S128x256_S128x256_1_0_0_1_n_n 128 rfl rfl).symm k) = ix2 p k := funext fun a => Fin.ext (by
    match a with
    | ⟨0, _⟩ => exact mm3_lhs0 _ _
    | ⟨1, _⟩ => exact (mm3_lhs1 _ _).trans hk)
  have er : dot_S128x128_S128x256_S128x256_1_0_0_1_n_n.rhsIdx (ix2 p q) ((contrEquiv1 dot_S128x128_S128x256_S128x256_1_0_0_1_n_n 128 rfl rfl).symm k) = ix2 k q := funext fun a => Fin.ext (by
    match a with
    | ⟨0, _⟩ => exact (mm3_rhs0 _ _).trans hk
    | ⟨1, _⟩ => exact mm3_rhs1 _ _)
  rw [el, er]

/-! ## The query block, the two projections -/

/-- The query block with its unit axis dropped. -/
theorem pay2_apply (v0 : Vec Ideal S1x128x256 .f32) (r : Fin 128) (d : Fin 256) :
    k0_pay2 (F := Ideal) v0 (ix2 r d) = v0 (ix3 (0 : Fin 1) r d) := by
  unfold k0_pay2
  exact shapeCast_1ab_ab_apply v0 shapeCasts_S1x128x256_S128x256 r d

/-- The query-side projection with the bias joined: row `r` of the block against column `h` of the first weight half,
    plus the bias at `h`. -/
theorem pay3_apply (v0 : Vec Ideal S1x128x256 .f32) (v3 : Vec Ideal S256x128 .f32) (v7 : Vec Ideal S1x128 .f32) (r h : Fin 128) :
    k0_pay3 (F := Ideal) v0 v3 v7 (ix2 r h)
      = Cert.Spec.dotRow (fun d => v0 (ix3 (0 : Fin 1) r d)) v3 h + v7 (ix2 (0 : Fin 1) h) := by
  unfold k0_pay3
  refine (congrArg₂ (· + ·) (mm1_apply _ _ r h) (broadcastTo_1b_ab_apply _ broadcasts_S1x128_S128x128 r h)).trans ?_
  rw [shapeCast_self, shapeCast_self]
  unfold Cert.Spec.dotRow
  refine congrArg (· + _) (Finset.sum_congr rfl fun d _ => ?_)
  exact congrArg (· * _) (pay2_apply v0 r d)

/-- The key-side projection: key row `j` against column `h` of the second weight half. -/
theorem pay4_apply (v12 : Vec Ideal S1x256x256 .f32) (v15 : Vec Ideal S256x128 .f32) (j : Fin 256) (h : Fin 128) :
    k0_pay4 (F := Ideal) v12 v15 (ix2 j h) = Cert.Spec.dotRow (fun d => v12 (ix3 (0 : Fin 1) j d)) v15 h := by
  unfold k0_pay4
  refine (mm2_apply _ _ j h).trans ?_
  rw [shapeCast_self]
  unfold Cert.Spec.dotRow
  refine Finset.sum_congr rfl fun d _ => ?_
  exact congrArg (· * _) (shapeCast_1ab_ab_apply v12 shapeCasts_S1x256x256_S256x256 j d)

/-! ## The rectified pairs of one half of the keys -/

/-- The rectified sums of every query row's projection with the 128 key projections from row `o` on: the
    `[128, 128, 128]` vector the body builds by two broadcasts, a sum and a maximum with the zero splat. -/
abbrev pairVec (o : Nat) (hs : S256x128.Slices ![o, 0] S128x128) (P3 : FVec Ideal S128x128 .bf16) (P4 : FVec Ideal S256x128 .bf16) :
    FVec Ideal S128x128x128 .bf16 :=
  maximumf
    (addf (broadcastTo S128x128x128 (shapeCast S128x1x128 P3 shapeCasts_S128x128_S128x1x128) broadcasts_S128x1x128_S128x128x128)
      (broadcastTo S128x128x128 (shapeCast S1x128x128 (extractStridedSlice S128x128 ![o, 0] P4 hs) shapeCasts_S128x128_S1x128x128)
        broadcasts_S1x128x128_S128x128x128))
    (broadcast S128x128x128 (Scalar.ofBits (F := Ideal) .bf16 0x0000#16))

/-- At `(r, j, h)` it is `max (P3 (r, h) + P4 (k, h)) 0`, `k = o + j` the key's row. -/
theorem pairVec_apply (o : Nat) (hs : S256x128.Slices ![o, 0] S128x128) (P3 : FVec Ideal S128x128 .bf16) (P4 : FVec Ideal S256x128 .bf16)
    (r j h : Fin 128) (k : Fin 256) (hk : k.val = o + j.val) :
    pairVec o hs P3 P4 (ix3 r j h) = max (P3 (ix2 r h) + P4 (ix2 k h)) 0 := by
  have e1 : broadcastTo S128x128x128 (shapeCast S128x1x128 P3 shapeCasts_S128x128_S128x1x128) broadcasts_S128x1x128_S128x128x128 (ix3 r j h)
      = P3 (ix2 r h) :=
    (broadcastTo_a1b_acb_apply _ broadcasts_S128x1x128_S128x128x128 r j h).trans
      (shapeCast_ab_a1b_apply P3 shapeCasts_S128x128_S128x1x128 r (0 : Fin 1) h)
  have e2 : broadcastTo S128x128x128 (shapeCast S1x128x128 (extractStridedSlice S128x128 ![o, 0] P4 hs) shapeCasts_S128x128_S1x128x128)
        broadcasts_S1x128x128_S128x128x128 (ix3 r j h) = P4 (ix2 k h) :=
    ((broadcastTo_1cb_acb_apply _ broadcasts_S1x128x128_S128x128x128 r j h).trans
      (shapeCast_ab_1ab_apply _ shapeCasts_S128x128_S1x128x128 (0 : Fin 1) j h)).trans
      (slice2_axis0_apply o P4 hs j h k hk)
  show max (_ + _) (Ideal.ofBits .bf16 0x0000#16) = _
  rw [e1, e2, ofBits_zero_bf16]

/-- Summed over the key axis (axis 1), widened to f32 first: the sum over `j` of the rectified pairs. -/
theorem pairVec_sum (V : FVec Ideal S128x128x128 .bf16) (r h : Fin 128) :
    multiReduction (F := Ideal) .add [1] S128x128 (extf .f32 V bitsLt_bf16_f32) 0x00000000#32 reduces_S128x128x128_S128x128 (.inl rfl) rfl
        (ix2 r h) = ∑ j : Fin 128, V (ix3 r j h) := by
  refine (Ideal.multiReduction_add_single (extf .f32 V bitsLt_bf16_f32) 0x00000000#32 reduces_S128x128x128_S128x128 (.inl rfl) rfl
    (ix2 r h)).trans ?_
  refine Finset.sum_congr rfl fun j _ => ?_
  exact congrArg V (funext fun c => Fin.ext (by match c with | ⟨0, _⟩ => rfl | ⟨1, _⟩ => rfl | ⟨2, _⟩ => rfl))

/-- The first half of the keys, summed: the leading zero splat dropped. -/
theorem pay5_apply (v0 : Vec Ideal S1x128x256 .f32) (v3 : Vec Ideal S256x128 .f32) (v7 : Vec Ideal S1x128 .f32)
    (v12 : Vec Ideal S1x256x256 .f32) (v15 : Vec Ideal S256x128 .f32) (r h : Fin 128) :
    k0_pay5 (F := Ideal) v0 v3 v7 v12 v15 (ix2 r h)
      = ∑ j : Fin 128, max (k0_pay3 (F := Ideal) v0 v3 v7 (ix2 r h) + k0_pay4 (F := Ideal) v12 v15 (ix2 (Cert.Spec.lo j) h)) 0 := by
  unfold k0_pay5
  refine (congrArg₂ (· + ·) Ideal.ofBits_zero_f32
    (pairVec_sum (pairVec 0 slices_S256x128_o0_0_S128x128 (k0_pay3 (F := Ideal) v0 v3 v7) (k0_pay4 (F := Ideal) v12 v15)) r h)).trans ?_
  rw [zero_add]
  refine Finset.sum_congr rfl fun j _ => ?_
  exact pairVec_apply 0 _ _ _ r j h (Cert.Spec.lo j) (Nat.zero_add _).symm

/-- The second half of the keys, not yet summed. -/
theorem pay6_apply (v0 : Vec Ideal S1x128x256 .f32) (v3 : Vec Ideal S256x128 .f32) (v7 : Vec Ideal S1x128 .f32)
    (v12 : Vec Ideal S1x256x256 .f32) (v15 : Vec Ideal S256x128 .f32) (r j h : Fin 128) :
    k0_pay6 (F := Ideal) v0 v3 v7 v12 v15 (ix3 r j h)
      = max (k0_pay3 (F := Ideal) v0 v3 v7 (ix2 r h) + k0_pay4 (F := Ideal) v12 v15 (ix2 (Cert.Spec.hi j) h)) 0 := by
  unfold k0_pay6
  exact pairVec_apply 128 slices_S256x128_o128_0_S128x128 _ _ r j h (Cert.Spec.hi j) rfl

/-! ## The stored value -/

/-- The stored element over any first-half sums `v31` and second-half pairs `v39`: the two half sums joined, the product
    with `1/256`, the product with the second weight matrix over `h`, the second bias, the query element. -/
theorem pay1_apply (v1 : FVec Ideal S128x256 .f32) (v31 : FVec Ideal S128x128 .f32) (v39 : FVec Ideal S128x128x128 .bf16)
    (v46 : Vec Ideal S128x256 .f32) (v49 : Vec Ideal S1x256 .f32) (r : Fin 128) (d : Fin 256) :
    k0_pay1 (F := Ideal) v1 v31 v39 v46 v49 (ix3 (0 : Fin 1) r d)
      = (∑ h : Fin 128, ((v31 (ix2 r h) + ∑ j : Fin 128, v39 (ix3 r j h)) * ((1 / 256 : ℝ) : EReal)) * v46 (ix2 h d))
        + v49 (ix2 (0 : Fin 1) d) + v1 (ix2 r d) := by
  unfold k0_pay1
  refine (shapeCast_ab_1ab_apply _ shapeCasts_S128x256_S1x128x256 (0 : Fin 1) r d).trans ?_
  refine congrArg (· + v1 (ix2 r d)) ?_
  refine (congrArg₂ (· + ·) (mm3_apply _ _ r d) (broadcastTo_1b_ab_apply _ broadcasts_S1x256_S128x256 r d)).trans ?_
  rw [shapeCast_self]
  refine congrArg (· + _) (Finset.sum_congr rfl fun h _ => ?_)
  refine congrArg (· * v46 (ix2 h d)) ?_
  refine congrArg₂ (· * ·) (congrArg (v31 (ix2 r h) + ·) (pairVec_sum v39 r h)) ofBits_inv256

/-- The kernel's stored element at row `r`, column `d` of its block is `Spec.outK` of query row `r`, the key rows, the
    weight halves, the biases and the second weight matrix. -/
theorem pay_eq (v0 : Vec Ideal S1x128x256 .f32) (v3 : Vec Ideal S256x128 .f32) (v7 : Vec Ideal S1x128 .f32)
    (v12 : Vec Ideal S1x256x256 .f32) (v15 : Vec Ideal S256x128 .f32) (v46 : Vec Ideal S128x256 .f32) (v49 : Vec Ideal S1x256 .f32)
    (r : Fin 128) (d : Fin 256) :
    k0_pay1 (F := Ideal) (k0_pay2 v0) (k0_pay5 v0 v3 v7 v12 v15) (k0_pay6 v0 v3 v7 v12 v15) v46 v49 (ValueIdx.ix3 (0 : Fin 1) r d)
      = Cert.Spec.outK (fun d' => v0 (ValueIdx.ix3 (0 : Fin 1) r d')) (fun j d' => v12 (ValueIdx.ix3 (0 : Fin 1) j d')) v3 v15
          (fun h => v7 (ValueIdx.ix2 (0 : Fin 1) h)) v46 (v49 (ValueIdx.ix2 (0 : Fin 1) d)) d := by
  rw [pay1_apply, pay2_apply]
  unfold Cert.Spec.outK Cert.Spec.meanK
  refine congrArg (· + v49 (ix2 (0 : Fin 1) d) + v0 (ix3 (0 : Fin 1) r d)) (Finset.sum_congr rfl fun h _ => ?_)
  refine congrArg (· * ((1 / 256 : ℝ) : EReal) * v46 (ix2 h d)) ?_
  rw [pay5_apply]
  refine congrArg₂ (· + ·) (Finset.sum_congr rfl fun j _ => ?_) (Finset.sum_congr rfl fun j _ => ?_)
  · rw [pay3_apply, pay4_apply]
  · rw [pay6_apply, pay3_apply, pay4_apply]

end Cert.KernelIdeal.Payload

end
-- ==== Proof.BlockSpec.lean ====
/-
  One block of the kernel's computation against the whole-array specification.

  A grid step holds one query row, all the key rows of the same batch, and the two biases as arrays with a leading
  axis of size one. Once each such entry is known to be the whole array's entry at the corresponding index, the
  per-row formula `outK` of the block's entries is the whole-array `arrK` at that index.
-/
import proofs.«153566_j28819230556872_2_alg».proof.Proof.Spec
import Idealize.ShloMosaic.Lib.ValueIdx

noncomputable section

namespace Cert.Spec.Block

open Idealize.ShloMosaic Idealize.ShloMosaic.ValueIdx

/-- The whole-array result read at `(b, k, d)`. -/
theorem arrK_ix3 (x : Cert.Spec.Sx.Idx → EReal) (wa wb : Cert.Spec.Sw1.Idx → EReal) (b1 : Cert.Spec.Sb1.Idx → EReal)
    (w2 : Cert.Spec.Sw2.Idx → EReal) (b2 : Cert.Spec.Sb2.Idx → EReal) (bb : Fin 16) (k d : Fin 256) :
    Cert.Spec.arrK x wa wb b1 w2 b2 (ValueIdx.ix3 bb k d)
      = Cert.Spec.outK (fun d' => x (ValueIdx.ix3 bb k d')) (fun j d' => x (ValueIdx.ix3 bb j d')) wa wb
          (fun h => b1 (ValueIdx.ix1 h)) w2 (b2 (ValueIdx.ix1 d)) d := rfl

/-- The per-row formula of a block whose entries are the whole array's entries of batch `bb`, query row `k`, is the
    whole-array result at `(bb, k, d)`. -/
theorem outK_block (x : Cert.Spec.Sx.Idx → EReal) (wa wb : Cert.Spec.Sw1.Idx → EReal) (b1 : Cert.Spec.Sb1.Idx → EReal) (w2 : Cert.Spec.Sw2.Idx → EReal) (b2 : Cert.Spec.Sb2.Idx → EReal)
    (x0 : (⟨3, ![1, 128, 256]⟩ : Shape).Idx → EReal) (x1 : (⟨3, ![1, 256, 256]⟩ : Shape).Idx → EReal) (b1r : (⟨2, ![1, 128]⟩ : Shape).Idx → EReal) (b2r : (⟨2, ![1, 256]⟩ : Shape).Idx → EReal)
    (bb : Fin 16) (k : Fin 256) (r : Fin 128) (d : Fin 256)
    (h0 : ∀ d' : Fin 256, x0 (ValueIdx.ix3 (0 : Fin 1) r d') = x (ValueIdx.ix3 bb k d'))
    (h1 : ∀ (j d' : Fin 256), x1 (ValueIdx.ix3 (0 : Fin 1) j d') = x (ValueIdx.ix3 bb j d'))
    (hb1 : ∀ h : Fin 128, b1r (ValueIdx.ix2 (0 : Fin 1) h) = b1 (ValueIdx.ix1 h))
    (hb2 : b2r (ValueIdx.ix2 (0 : Fin 1) d) = b2 (ValueIdx.ix1 d)) :
    Cert.Spec.outK (fun d' => x0 (ValueIdx.ix3 (0 : Fin 1) r d')) (fun j d' => x1 (ValueIdx.ix3 (0 : Fin 1) j d')) wa wb (fun h => b1r (ValueIdx.ix2 (0 : Fin 1) h)) w2 (b2r (ValueIdx.ix2 (0 : Fin 1) d)) d
      = Cert.Spec.arrK x wa wb b1 w2 b2 (ValueIdx.ix3 bb k d) := by
  have e0 : (fun d' => x0 (ValueIdx.ix3 (0 : Fin 1) r d')) = fun d' => x (ValueIdx.ix3 bb k d') := funext h0
  have e1 : (fun j d' => x1 (ValueIdx.ix3 (0 : Fin 1) j d')) = fun j d' => x (ValueIdx.ix3 bb j d') :=
    funext fun j => funext fun d' => h1 j d'
  have eb : (fun h => b1r (ValueIdx.ix2 (0 : Fin 1) h)) = fun h => b1 (ValueIdx.ix1 h) := funext hb1
  rw [e0, e1, eb, hb2, arrK_ix3]

end Cert.Spec.Block

end
-- ==== Proof.HostReads.lean ====
/-
  What the four host operations before the kernel leave in their result buffers.

  Two slices cut the first weight matrix `main_arg1 : [512, 128]` into its halves `main_v0` (rows 0 to 255) and `main_v1`
  (rows 256 to 511); two reshapes view the biases `main_arg2 : [128]` and `main_arg4 : [256]` as the rows
  `main_v2 : [1, 128]` and `main_v3 : [1, 256]`. Each result is read back from the launch contents `m` of device `c`:
  a half is the slice of the matrix, a row at `(0, h)` is the bias at `h`.
-/
import proofs.«153566_j28819230556872_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostReads

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F] (m : (ℓ : Loc nD τ sig) → Buf (Elt F) ℓ) (c : Dev nD)

/-- The first half of the first weight matrix: its rows 0 to 255. -/
theorem after_v0 :
    (StableHlo.after (hostOps0 (F := F)) (fun b => m (c, b)) (Proc.devRef .tc main_v0) : S256x128.Idx → Elt F .f32)
      = extractStridedSlice S256x128 ![0, 0] (m ((c.tc : Thread nD τ).loc main_arg1)) slices_S512x128_S256x128_0_0 := by
  dsimp only [hostOps0]
  after_results

/-- The second half of the first weight matrix: its rows 256 to 511. -/
theorem after_v1 :
    (StableHlo.after (hostOps0 (F := F)) (fun b => m (c, b)) (Proc.devRef .tc main_v1) : S256x128.Idx → Elt F .f32)
      = extractStridedSlice S256x128 ![256, 0] (m ((c.tc : Thread nD τ).loc main_arg1)) slices_S512x128_S256x128_256_0 := by
  dsimp only [hostOps0]
  after_results

/-- The first bias as a row: the bias with a leading unit axis. -/
theorem after_v2 :
    (StableHlo.after (hostOps0 (F := F)) (fun b => m (c, b)) (Proc.devRef .tc main_v2) : S1x128.Idx → Elt F .f32)
      = shapeCast S1x128 (m ((c.tc : Thread nD τ).loc main_arg2) : S128.Idx → Elt F .f32) shapeCasts_S128_S1x128 := by
  dsimp only [hostOps0]
  after_results
  rfl

/-- The first bias as a row, at `(0, h)`: the bias at `h`. -/
theorem after_v2_apply (h : Fin 128) :
    (StableHlo.after (hostOps0 (F := F)) (fun b => m (c, b)) (Proc.devRef .tc main_v2) : S1x128.Idx → Elt F .f32) (ix2 (0 : Fin 1) h)
      = m ((c.tc : Thread nD τ).loc main_arg2) (ix1 h) := by
  rw [after_v2]
  exact shapeCast_a_1a_apply _ shapeCasts_S128_S1x128 (0 : Fin 1) h

/-- The second bias as a row: the bias with a leading unit axis. -/
theorem after_v3 :
    (StableHlo.after (hostOps0 (F := F)) (fun b => m (c, b)) (Proc.devRef .tc main_v3) : S1x256.Idx → Elt F .f32)
      = shapeCast S1x256 (m ((c.tc : Thread nD τ).loc main_arg4) : S256.Idx → Elt F .f32) shapeCasts_S256_S1x256 := by
  dsimp only [hostOps0]
  after_results
  rfl

/-- The second bias as a row, at `(0, d)`: the bias at `d`. -/
theorem after_v3_apply (d : Fin 256) :
    (StableHlo.after (hostOps0 (F := F)) (fun b => m (c, b)) (Proc.devRef .tc main_v3) : S1x256.Idx → Elt F .f32) (ix2 (0 : Fin 1) d)
      = m ((c.tc : Thread nD τ).loc main_arg4) (ix1 d) := by
  rw [after_v3]
  exact shapeCast_a_1a_apply _ shapeCasts_S256_S1x256 (0 : Fin 1) d

end Cert.KernelIdeal.HostReads

end
-- ==== Proof.KernelValue.lean ====
/-
  What the kernel program leaves in its result array, as one function of the argument arrays.

  The grid has one point per (batch, tile of 128 query rows); the output window's block at that point is the tile's
  rows of the batch, all 256 columns, and the 32 blocks tile the result array. At a point the query window's block
  is the same tile of `x`, the key window's block the whole batch of `x`, and the five weight and bias windows'
  blocks their whole arrays. The body's arithmetic at row `r`, column `d` of the block is the specification's
  kernel-shaped element `outK` of those blocks, which is the whole-array `arrK` at (batch, 128·tile + r, d). Every
  index of the result lies in exactly the block of its batch and tile, so the array ends holding `arrK` everywhere.
-/
import proofs.«153566_j28819230556872_2_alg».proof.Proof.FrameKernelIdeal
import proofs.«153566_j28819230556872_2_alg».proof.Proof.Payload
import proofs.«153566_j28819230556872_2_alg».proof.Proof.BlockSpec
import proofs.«153566_j28819230556872_2_alg».proof.Proof.HostReads
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices of the eight windows at a grid point, decided over the grid: the query and output windows
    move together over (batch, tile); the key window follows the batch only; the rest stay at their one block. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (2 : Fin 3) = 0 ∧ win0_7.index t (0 : Fin 3) ≤ 15 ∧ win0_7.index t (1 : Fin 3) ≤ 1 :=
  (by decide +kernel : ∀ t : Fin grid0.N, _)

/-- Every (batch, tile) is some point's output block. -/
theorem idx_onto : ∀ (q0 : Fin 16) (q1 : Fin 2), ∃ t : Fin cfg0.N, win0_7.index t = ![q0.val, q1.val, 0] :=
  (by decide +kernel : ∀ (q0 : Fin 16) (q1 : Fin 2), ∃ t : Fin grid0.N, win0_7.index t = ![q0.val, q1.val, 0])

/-- The result array over the arrays as the region finds them. -/
def GV (c : Dev nD) : S16x256x256.Idx → EReal :=
  Cert.Spec.arrK (V m c main_arg0) (V m c main_v0) (V m c main_v1) (m ((c.tc : Thread nD τ).loc main_arg2)) (V m c main_arg3)
    (m ((c.tc : Thread nD τ).loc main_arg4))

/-- The body's output block at (r, d), once its input blocks are known to be the arrays' entries at the shifted
    indices, is the whole-array specification at (batch, row, d). -/
theorem out_core (x0 : Vec Ideal S1x128x256 .f32) (x1 : Vec Ideal S1x256x256 .f32) (x2 x3 : Vec Ideal S256x128 .f32) (x4 : Vec Ideal S1x128 .f32)
    (x5 : Vec Ideal S128x256 .f32) (x6 : Vec Ideal S1x256 .f32)
    (x : S16x256x256.Idx → EReal) (b1 : S128.Idx → EReal) (b2 : S256.Idx → EReal) (bb : Fin 16) (k : Fin 256) (r : Fin 128) (d : Fin 256)
    (h0 : ∀ d' : Fin 256, x0 (ix3 (0 : Fin 1) r d') = x (ix3 bb k d'))
    (h1 : ∀ (j d' : Fin 256), x1 (ix3 (0 : Fin 1) j d') = x (ix3 bb j d'))
    (hb1 : ∀ h : Fin 128, x4 (ix2 (0 : Fin 1) h) = b1 (ix1 h)) (hb2 : x6 (ix2 (0 : Fin 1) d) = b2 (ix1 d)) :
    out0_7 (F := Ideal) x0 x1 x2 x3 x4 x5 x6 (ix3 (0 : Fin 1) r d) = Cert.Spec.arrK x x2 x3 b1 x5 b2 (ix3 bb k d) := by
  unfold out0_7
  rw [View.canon_unit_zero hz3]
  simp only [View.ld_unit_zero (S := S1x128x256) hz3, View.ld_unit_zero (S := S1x256x256) hz3, View.ld_unit_zero (S := S256x128) hz2,
    View.ld_unit_zero (S := S1x128) hz2, View.ld_unit_zero (S := S128x256) hz2, View.ld_unit_zero (S := S1x256) hz2]
  exact (Cert.KernelIdeal.Payload.pay_eq x0 x2 x4 x1 x3 x5 x6 r d).trans
    (Cert.Spec.Block.outK_block x x2 x3 b1 x5 b2 x0 x1 x4 x6 bb k r d h0 h1 hb1 hb2)

/-! The one-block windows' blocks are their whole arrays. -/
theorem iblk2_eq (c : Dev nD) (t : Fin cfg0.N) : (iblk m c 2 t : S256x128.Idx → EReal) = V m c main_v0 := by
  obtain ⟨-, -, -, -, -, -, e0, e1, -⟩ := idx_facts t
  funext y
  show V m c main_v0 (((cfg0.win 2).blk t).view.emb y) = V m c main_v0 y
  refine congrArg (V m c main_v0) (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega
theorem iblk3_eq (c : Dev nD) (t : Fin cfg0.N) : (iblk m c 3 t : S256x128.Idx → EReal) = V m c main_v1 := by
  obtain ⟨-, -, -, -, -, -, -, -, e0, e1, -⟩ := idx_facts t
  funext y
  show V m c main_v1 (((cfg0.win 3).blk t).view.emb y) = V m c main_v1 y
  refine congrArg (V m c main_v1) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega
theorem iblk5_eq (c : Dev nD) (t : Fin cfg0.N) : (iblk m c 5 t : S128x256.Idx → EReal) = V m c main_arg3 := by
  obtain ⟨-, -, -, -, -, -, -, -, -, -, -, -, e0, e1, -⟩ := idx_facts t
  funext y
  show V m c main_arg3 (((cfg0.win 5).blk t).view.emb y) = V m c main_arg3 y
  refine congrArg (V m c main_arg3) (funext fun a => Fin.ext ?_)
  match a with
  | ⟨0, _⟩ => show win0_5.index t (0 : Fin 2) * 128 + 1 * (y 0).val = (y 0).val; omega
  | ⟨1, _⟩ => show win0_5.index t (1 : Fin 2) * 256 + 1 * (y 1).val = (y 1).val; omega

/-- What point `t` writes back is block `t` of the result array. -/
theorem flushed_eq (c : Dev nD) (t : Fin cfg0.N) :
    (dats m 0 c).flushed 7 t = ((cfg0.win 7).blk t).view.read (Elt Ideal) (GV m c) := by
  show (cfg0.win 7).cut (grid0.coords t) ((dats m 0 c).after 7 t) = _
  rw [after0_7]
  obtain ⟨e00, e01, e02, e10, e11, e12, -, -, -, -, e40, e41, -, -, e60, e61, e72, hb0, hb1⟩ := idx_facts t
  funext j
  have hj : (j : S1x128x256.Idx) = ix3 (0 : Fin 1) (j 1) (j 2) := by
    funext a; apply Fin.ext
    match a with
    | ⟨0, _⟩ => have h : (j 0).val < 1 := (j 0).isLt; show (j 0).val = 0; omega
    | ⟨1, _⟩ => rfl
    | ⟨2, _⟩ => rfl
  obtain ⟨r, d, rfl⟩ : ∃ (r : Fin 128) (d : Fin 256), (j : S1x128x256.Idx) = ix3 (0 : Fin 1) r d := ⟨j 1, j 2, hj⟩
  have hk : win0_7.index t (1 : Fin 3) * 128 + r.val < 256 := by have := r.isLt; omega
  have hbb : win0_7.index t (0 : Fin 3) < 16 := by omega
  refine (out_core (iblk m c 0 t) (iblk m c 1 t) (iblk m c 2 t) (iblk m c 3 t) (iblk m c 4 t) (iblk m c 5 t) (iblk m c 6 t)
    (V m c main_arg0) (m ((c.tc : Thread nD τ).loc main_arg2)) (m ((c.tc : Thread nD τ).loc main_arg4))
    ⟨win0_7.index t (0 : Fin 3), hbb⟩ ⟨win0_7.index t (1 : Fin 3) * 128 + r.val, hk⟩ r d ?_ ?_ ?_ ?_).trans ?_
  · intro d'
    show V m c main_arg0 (((cfg0.win 0).blk t).view.emb (ix3 (0 : Fin 1) r d')) = V m c main_arg0 _
    refine congrArg (V m c main_arg0) (funext fun a => Fin.ext ?_)
    match a with
    | ⟨0, _⟩ => show win0_0.index t (0 : Fin 3) * 1 + 1 * 0 = win0_7.index t (0 : Fin 3); omega
    | ⟨1, _⟩ => show win0_0.index t (1 : Fin 3) * 128 + 1 * r.val = win0_7.index t (1 : Fin 3) * 128 + r.val; omega
    | ⟨2, _⟩ => show win0_0.index t (2 : Fin 3) * 256 + 1 * d'.val = d'.val; omega
  · intro j' d'
    show V m c main_arg0 (((cfg0.win 1).blk t).view.emb (ix3 (0 : Fin 1) j' d')) = V m c main_arg0 _
    refine congrArg (V m c main_arg0) (funext fun a => Fin.ext ?_)
    match a with
    | ⟨0, _⟩ => show win0_1.index t (0 : Fin 3) * 1 + 1 * 0 = win0_7.index t (0 : Fin 3); omega
    | ⟨1, _⟩ => show win0_1.index t (1 : Fin 3) * 256 + 1 * j'.val = j'.val; omega
    | ⟨2, _⟩ => show win0_1.index t (2 : Fin 3) * 256 + 1 * d'.val = d'.val; omega
  · intro h
    refine Eq.trans ?_ (Cert.KernelIdeal.HostReads.after_v2_apply m c h)
    show V m c main_v2 (((cfg0.win 4).blk t).view.emb (ix2 (0 : Fin 1) h)) = V m c main_v2 (ix2 (0 : Fin 1) h)
    refine congrArg (V m c main_v2) (funext fun a => Fin.ext ?_)
    match a with
    | ⟨0, _⟩ => show win0_4.index t (0 : Fin 2) * 1 + 1 * 0 = 0; omega
    | ⟨1, _⟩ => show win0_4.index t (1 : Fin 2) * 128 + 1 * h.val = h.val; omega
  · refine Eq.trans ?_ (Cert.KernelIdeal.HostReads.after_v3_apply m c d)
    show V m c main_v3 (((cfg0.win 6).blk t).view.emb (ix2 (0 : Fin 1) d)) = V m c main_v3 (ix2 (0 : Fin 1) d)
    refine congrArg (V m c main_v3) (funext fun a => Fin.ext ?_)
    match a with
    | ⟨0, _⟩ => show win0_6.index t (0 : Fin 2) * 1 + 1 * 0 = 0; omega
    | ⟨1, _⟩ => show win0_6.index t (1 : Fin 2) * 256 + 1 * d.val = d.val; omega
  · rw [iblk2_eq, iblk3_eq, iblk5_eq]
    show GV m c _ = GV m c (((cfg0.win 7).blk t).view.emb (ix3 (0 : Fin 1) r d))
    refine congrArg (GV m c) (funext fun a => Fin.ext ?_)
    match a with
    | ⟨0, _⟩ => show win0_7.index t (0 : Fin 3) = win0_7.index t (0 : Fin 3) * 1 + 1 * 0; omega
    | ⟨1, _⟩ => show win0_7.index t (1 : Fin 3) * 128 + r.val = win0_7.index t (1 : Fin 3) * 128 + 1 * r.val; omega
    | ⟨2, _⟩ => show d.val = win0_7.index t (2 : Fin 3) * 256 + 1 * d.val; omega

/-- An index of the result is in point `t`'s block iff each coordinate is in the block's range on its axis. -/
theorem mem_blk7 (t : Fin cfg0.N) (i : S16x256x256.Idx) :
    i ∈ ((cfg0.win 7).blk t).view.set ↔ ∀ a : Fin 3, win0_7.index t a * S1x128x256.size a ≤ (i a).val ∧ (i a).val < win0_7.index t a * S1x128x256.size a + S1x128x256.size a := by
  show i ∈ ((View.whole main_v4).slice (win0_7.rect t)).set ↔ _
  rw [View.set_slice_whole, Rect.mem_set_unit]
  exact Iff.rfl

/-- Every index of the result is in the block of its batch and tile. -/
theorem cover7 (i : S16x256x256.Idx) : ∃ t : Fin cfg0.N, (cfg0.win 7).flush t = true ∧ i ∈ ((cfg0.win 7).blk t).view.set := by
  have hi0 : (i 0).val < 16 := (i 0).isLt
  have hi1 : (i 1).val < 256 := (i 1).isLt
  have hi2 : (i 2).val < 256 := (i 2).isLt
  obtain ⟨t, ht⟩ := idx_onto ⟨(i 0).val, hi0⟩ ⟨(i 1).val / 128, by omega⟩
  have q0 : win0_7.index t (0 : Fin 3) = (i 0).val := congrFun ht 0
  have q1 : win0_7.index t (1 : Fin 3) = (i 1).val / 128 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 128 ≤ (i 1).val ∧ (i 1).val < win0_7.index t (1 : Fin 3) * 128 + 128; omega
  | ⟨2, _⟩ => show win0_7.index t (2 : Fin 3) * 256 ≤ (i 2).val ∧ (i 2).val < win0_7.index t (2 : Fin 3) * 256 + 256; omega

/-- The result array after the run. -/
theorem final7 (c : Dev nD) : (dats m 0 c).arrAt 7 cfg0.N = GV m c :=
  (dats m 0 c).arrAt_eq_of_cover 7 (GV m c) (fun t _ => flushed_eq m c t) cover7

/-- The result array of the arguments as launched: the weight halves are the two slices of the first weight matrix. -/
def G (c : Dev nD) : S16x256x256.Idx → EReal :=
  Cert.Spec.arrK (m ((c.tc : Thread nD τ).loc main_arg0))
    (extractStridedSlice S256x128 ![0, 0] (m ((c.tc : Thread nD τ).loc main_arg1)) slices_S512x128_S256x128_0_0)
    (extractStridedSlice S256x128 ![256, 0] (m ((c.tc : Thread nD τ).loc main_arg1)) slices_S512x128_S256x128_256_0)
    (m ((c.tc : Thread nD τ).loc main_arg2)) (m ((c.tc : Thread nD τ).loc main_arg3)) (m ((c.tc : Thread nD τ).loc main_arg4))

/-- The arrays the region finds are the arguments as launched and the two slices. -/
theorem GV_eq (c : Dev nD) : GV m c = G m c := by
  unfold GV G
  rw [V_main_arg0, V_main_arg3]
  dsimp only [V]
  rw [Cert.KernelIdeal.HostReads.after_v0 m c, Cert.KernelIdeal.HostReads.after_v1 m c]

/-- The run, read: the result array ends at the specification's kernel-shaped array of the arguments, and the
    arguments end as launched. -/
theorem run : θ_run (defs (F := Ideal)) (onTc (τ := τ) (main (F := Ideal))) ⟨m, fun _ => 0, ρ⟩ fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 7).trans ((final7 m c).trans (GV_eq m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c)⟩)
    (run_main m ρ)

end Cert.KernelIdeal.KValue

end
-- ==== Proof.RefValue.lean ====
/-
  The reference's result, read at an index, is the specification's `outR` of the argument arrays.

  Stage by stage: each projection `x · w` read at an index is `dotRow` of one row of `x` against a weight half; the
  paired, biased and clamped four-axis array read at `(b, q, j, h)` is `max (a h + b j h + b1 h) 0`; its sum over the key
  axis `j` starts from the zero literal; the quotient by the literal 256 is `meanR`; the last projection, the second
  bias and the residual `x` give `outR`.
-/
import proofs.«153566_j28819230556872_2_alg».proof.Defs
import proofs.«153566_j28819230556872_2_alg».proof.Proof.Gen.ReferenceIdeal.Read
import proofs.«153566_j28819230556872_2_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The pattern of `256.0` denotes the real 256. -/
theorem ofBits_256 : Ideal.ofBits .f32 0x43800000#32 = ((256 : ℝ) : EReal) := by
  simp [Ideal.ofBits, Ideal.ieee, -EReal.coe_mul]; norm_num

/-- The query-side projection at `(b, q, h)`: row `q` of batch `b` against the first weight half. -/
theorem v2_read (x0 : (⟨S16x256x256, .f32⟩ : BufTy).Contents (Elt Ideal)) (x1 : (⟨S512x128, .f32⟩ : BufTy).Contents (Elt Ideal))
    (b : Fin 16) (q : Fin 256) (h : Fin 128) :
    Read.val_main_v2 (F := Ideal) x0 x1 (ix3 b q h)
      = Cert.Spec.dotRow (fun d => x0 (ix3 b q d)) (Read.val_main_v0 (F := Ideal) x1) h := by
  rw [Read.val_main_v2_apply]
  unfold Cert.Spec.dotRow
  refine Finset.sum_congr rfl fun k _ => ?_
  have el : Read.lidx_main_v2 (ix3 b q h) k = ix3 b q k :=
    funext fun a => by match a with | ⟨0, _⟩ => rfl | ⟨1, _⟩ => rfl | ⟨2, _⟩ => rfl
  have er : Read.ridx_main_v2 (ix3 b q h) k = ix2 k h :=
    funext fun a => by match a with | ⟨0, _⟩ => rfl | ⟨1, _⟩ => rfl
  rw [el, er]

/-- The key-side projection at `(b, j, h)`: row `j` of batch `b` against the second weight half. -/
theorem v3_read (x0 : (⟨S16x256x256, .f32⟩ : BufTy).Contents (Elt Ideal)) (x1 : (⟨S512x128, .f32⟩ : BufTy).Contents (Elt Ideal))
    (b : Fin 16) (j : Fin 256) (h : Fin 128) :
    Read.val_main_v3 (F := Ideal) x0 x1 (ix3 b j h)
      = Cert.Spec.dotRow (fun d => x0 (ix3 b j d)) (Read.val_main_v1 (F := Ideal) x1) h := by
  rw [Read.val_main_v3_apply]
  unfold Cert.Spec.dotRow
  refine Finset.sum_congr rfl fun k _ => ?_
  have el : Read.lidx_main_v3 (ix3 b j h) k = ix3 b j k :=
    funext fun a => by match a with | ⟨0, _⟩ => rfl | ⟨1, _⟩ => rfl | ⟨2, _⟩ => rfl
  have er : Read.ridx_main_v3 (ix3 b j h) k = ix2 k h :=
    funext fun a => by match a with | ⟨0, _⟩ => rfl | ⟨1, _⟩ => rfl
  rw [el, er]

/-- The paired, biased and clamped array at `(b, q, j, h)`. -/
theorem v12_read (x0 : (⟨S16x256x256, .f32⟩ : BufTy).Contents (Elt Ideal)) (x1 : (⟨S512x128, .f32⟩ : BufTy).Contents (Elt Ideal))
    (x2 : (⟨S128, .f32⟩ : BufTy).Contents (Elt Ideal)) (b : Fin 16) (q j : Fin 256) (h : Fin 128) :
    Read.val_main_v12 (F := Ideal) x0 x1 x2 (ix4 b q j h)
      = max (Cert.Spec.dotRow (fun d => x0 (ix3 b q d)) (Read.val_main_v0 (F := Ideal) x1) h
          + Cert.Spec.dotRow (fun d => x0 (ix3 b j d)) (Read.val_main_v1 (F := Ideal) x1) h + x2 (ix1 h)) 0 := by
  rw [Read.val_main_v12_apply, Read.val_main_v11_apply, Read.val_main_v8_apply, Read.val_main_v6_apply,
    Read.val_main_v4_apply, Read.val_main_v7_apply, Read.val_main_v5_apply, Read.val_main_v10_apply,
    Read.val_main_v9_apply, Read.val_main_call0_v0_apply, Read.val_main_call0_cst_apply]
  have e4 : Read.idx_main_v4 (Read.idx_main_v6 (ix4 b q j h)) = ix3 b q h :=
    funext fun a => by match a with | ⟨0, _⟩ => rfl | ⟨1, _⟩ => rfl | ⟨2, _⟩ => rfl
  have e5 : Read.idx_main_v5 (Read.idx_main_v7 (ix4 b q j h)) = ix3 b j h :=
    funext fun a => by match a with | ⟨0, _⟩ => rfl | ⟨1, _⟩ => rfl | ⟨2, _⟩ => rfl
  have e9 : Read.idx_main_v9 (Read.idx_main_v10 (ix4 b q j h)) = ix1 h :=
    funext fun a => by match a with | ⟨0, _⟩ => rfl
  rw [e4, e5, e9, v2_read, v3_read]
  simp only [Ideal.addf_def, Ideal.maximumf_def, Ideal.ofBits_def, Ideal.ofBits_zero_f32]

/-- The sum over the key axis at `(b, q, h)`: the initial value is zero. -/
theorem v13_read (x0 : (⟨S16x256x256, .f32⟩ : BufTy).Contents (Elt Ideal)) (x1 : (⟨S512x128, .f32⟩ : BufTy).Contents (Elt Ideal))
    (x2 : (⟨S128, .f32⟩ : BufTy).Contents (Elt Ideal)) (b : Fin 16) (q : Fin 256) (h : Fin 128) :
    Read.val_main_v13 (F := Ideal) x0 x1 x2 (ix3 b q h)
      = ∑ j : Fin 256, max (Cert.Spec.dotRow (fun d => x0 (ix3 b q d)) (Read.val_main_v0 (F := Ideal) x1) h
          + Cert.Spec.dotRow (fun d => x0 (ix3 b j d)) (Read.val_main_v1 (F := Ideal) x1) h + x2 (ix1 h)) 0 := by
  rw [Read.val_main_v13_apply, Read.val_main_cst_apply, Ideal.ofBits_def, Ideal.ofBits_zero_f32, zero_add]
  refine Finset.sum_congr rfl fun j _ => ?_
  have e13 : Read.idx_main_v13 (ix3 b q h) j = ix4 b q j h :=
    funext fun a => by match a with | ⟨0, _⟩ => rfl | ⟨1, _⟩ => rfl | ⟨2, _⟩ => rfl | ⟨3, _⟩ => rfl
  rw [e13, v12_read]

/-- The mean over the keys at `(b, q, h)` is the specification's `meanR`. -/
theorem v15_read (x0 : (⟨S16x256x256, .f32⟩ : BufTy).Contents (Elt Ideal)) (x1 : (⟨S512x128, .f32⟩ : BufTy).Contents (Elt Ideal))
    (x2 : (⟨S128, .f32⟩ : BufTy).Contents (Elt Ideal)) (b : Fin 16) (q : Fin 256) (h : Fin 128) :
    Read.val_main_v15 (F := Ideal) x0 x1 x2 (ix3 b q h)
      = Cert.Spec.meanR (Cert.Spec.dotRow (fun d => x0 (ix3 b q d)) (Read.val_main_v0 (F := Ideal) x1) h) (x2 (ix1 h))
          (fun j => Cert.Spec.dotRow (fun d => x0 (ix3 b j d)) (Read.val_main_v1 (F := Ideal) x1) h) := by
  rw [Read.val_main_v15_apply, v13_read, Read.val_main_v14_apply, Read.val_main_cst_0_apply, Ideal.hostDivf_def,
    Ideal.ofBits_def, ofBits_256]
  rfl

/-- The specification's result array read at `(b, q, d)`. -/
theorem arrR_ix3 (x : Cert.Spec.Sx.Idx → EReal) (wa wb : Cert.Spec.Sw1.Idx → EReal) (b1 : Cert.Spec.Sb1.Idx → EReal)
    (w2 : Cert.Spec.Sw2.Idx → EReal) (b2 : Cert.Spec.Sb2.Idx → EReal) (b : Fin 16) (q d : Fin 256) :
    Cert.Spec.arrR x wa wb b1 w2 b2 (ix3 b q d)
      = Cert.Spec.outR (fun d' => x (ix3 b q d')) (fun j d' => x (ix3 b j d')) wa wb (fun h => b1 (ix1 h)) w2 (b2 (ix1 d)) d := rfl

/-- The reference's result array is the specification's `arrR` of the argument arrays, the two weight halves being
    the two slices of the first weight matrix. -/
theorem result_eq (x0 : (⟨S16x256x256, .f32⟩ : BufTy).Contents (Elt Ideal)) (x1 : (⟨S512x128, .f32⟩ : BufTy).Contents (Elt Ideal))
    (x2 : (⟨S128, .f32⟩ : BufTy).Contents (Elt Ideal)) (x3 : (⟨S128x256, .f32⟩ : BufTy).Contents (Elt Ideal))
    (x4 : (⟨S256, .f32⟩ : BufTy).Contents (Elt Ideal)) :
    Read.val_main_v20 (F := Ideal) x0 x1 x2 x3 x4
      = Cert.Spec.arrR x0 (Read.val_main_v0 (F := Ideal) x1) (Read.val_main_v1 (F := Ideal) x1) x2 x3 x4 := by
  funext i
  obtain ⟨b, q, d, rfl⟩ : ∃ (b : Fin 16) (q : Fin 256) (d : Fin 256), i = ix3 b q d := ⟨i 0, i 1, i 2, eq_ix3 i⟩
  rw [Read.val_main_v20_apply, Read.val_main_v19_apply, Read.val_main_v16_apply, Read.val_main_v18_apply,
    Read.val_main_v17_apply, arrR_ix3]
  have e17 : Read.idx_main_v17 (Read.idx_main_v18 (ix3 b q d)) = ix1 d :=
    funext fun a => by match a with | ⟨0, _⟩ => rfl
  have hs : ∑ k : Fin 128, Read.val_main_v15 (F := Ideal) x0 x1 x2 (Read.lidx_main_v16 (ix3 b q d) k)
        * x3 (Read.ridx_main_v16 (ix3 b q d) k)
      = ∑ h : Fin 128, Cert.Spec.meanR (Cert.Spec.dotRow (fun d' => x0 (ix3 b q d')) (Read.val_main_v0 (F := Ideal) x1) h)
          (x2 (ix1 h)) (fun j => Cert.Spec.dotRow (fun d' => x0 (ix3 b j d')) (Read.val_main_v1 (F := Ideal) x1) h)
          * x3 (ix2 h d) := Finset.sum_congr rfl fun k _ => by
    have el : Read.lidx_main_v16 (ix3 b q d) k = ix3 b q k :=
      funext fun a => by match a with | ⟨0, _⟩ => rfl | ⟨1, _⟩ => rfl | ⟨2, _⟩ => rfl
    have er : Read.ridx_main_v16 (ix3 b q d) k = ix2 k d :=
      funext fun a => by match a with | ⟨0, _⟩ => rfl | ⟨1, _⟩ => rfl
    rw [el, er, v15_read]
  rw [e17, hs, Ideal.addf_def, Ideal.addf_def]
  unfold Cert.Spec.outR
  rfl

end Cert.ReferenceIdeal.RefValue

end
-- ==== Proof.lean ====
/-
  The certificate: the kernel program, its idealization and the idealized reference each run to the end without a
  fault leaving their arguments unchanged; the idealization rewrote nothing; and at the ideal values — floats as
  extended reals, every operation exact, changes of format the identity — the idealized kernel and the idealized
  reference, run from memories that agree on the five arguments, end with the same result array.

  Both results are one function of the arguments. For batch `b`, query row `k` and column `d`:

    a h   = ∑ e, x[b,k,e] · W1[e,h]               b j h = ∑ e, x[b,j,e] · W1[256+e,h]
    mean h = (1/256) · ∑ j, max (a h + b j h + b1 h) 0
    out   = (∑ h, mean h · W2[h,d]) + b2 d + x[b,k,d]

  The kernel computes it tile by tile (128 query rows against all 256 key rows of the batch), joining the bias to
  the query side first, summing the keys in two halves and multiplying by 2⁻⁸; the reference materialises all pairs,
  adds the bias, sums and divides by 256. Addition on the extended reals is commutative and associative and the
  quotient by the real 256 is the product with 1/256, so the two agree at every input: the precondition is not used.
-/
import proofs.«153566_j28819230556872_2_alg».proof.Defs
import proofs.«153566_j28819230556872_2_alg».proof.Proof.Gen.Kernel
import proofs.«153566_j28819230556872_2_alg».proof.Proof.Gen.KernelIdeal
import proofs.«153566_j28819230556872_2_alg».proof.Proof.Gen.ReferenceIdeal
import proofs.«153566_j28819230556872_2_alg».proof.Proof.Gen.Pre_finite_inputs
import proofs.«153566_j28819230556872_2_alg».proof.Proof.Gen.ReferenceIdeal.Run
import proofs.«153566_j28819230556872_2_alg».proof.Proof.Gen.ReferenceIdeal.Read
import proofs.«153566_j28819230556872_2_alg».proof.Proof.FrameKernel
import proofs.«153566_j28819230556872_2_alg».proof.Proof.FrameKernelIdeal
import proofs.«153566_j28819230556872_2_alg».proof.Proof.KernelValue
import proofs.«153566_j28819230556872_2_alg».proof.Proof.RefValue
import proofs.«153566_j28819230556872_2_alg».proof.Proof.Spec
import Idealize.ShloMosaic.Adequacy
import Idealize.ShloMosaic.Init

noncomputable section

namespace Cert.Proof

open Idealize.ShloMosaic Idealize.ShloMosaic.TcCoe Idealize.SL.Sem

/-- The kernel program's frame. -/
theorem frame_p : Cert.frame_Kernel (hKernel := Cert.Kernel.Gen.facts) (hPre_finite_inputs := Cert.Pre_finite_inputs.Gen.facts) :=
  fun m ρ _ => Cert.Kernel.Run.frame m ρ

/-- The idealized kernel's frame. -/
theorem frame_pi : Cert.frame_KernelIdeal (hKernelIdeal := Cert.KernelIdeal.Gen.facts) (hPre_finite_inputs := Cert.Pre_finite_inputs.Gen.facts) :=
  fun m ρ _ => Cert.KernelIdeal.Run.frame m ρ

/-- The idealized reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end with the specification's result array of the arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1, (hagree c).2.2.1,
    (hagree c).2.2.2.1, (hagree c).2.2.2.2]
  exact (Cert.Spec.arrK_eq_arrR _ _ _ _ _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
